-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn_part1 {F : FTy → Type} [FloatOps F] (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  main_v18

def fn {F : FTy → Type} [FloatOps F] (main_arg0 : FVec F S8192x256 .f32) (main_arg1 : FVec F S8192x256 .f32) (main_arg2 : FVec F S8192x256 .f32) (main_arg3 : FVec F S8192x8192 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_v13 main_v16
-- ==== Kernel.lean ====
abbrev S8192x256 : Shape := ⟨2, ![8192, 256]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S64x128 : Shape := ⟨2, ![64, 128]⟩
abbrev S1024x256 : Shape := ⟨2, ![1024, 256]⟩
abbrev S1024x1024 : Shape := ⟨2, ![1024, 1024]⟩
abbrev S8x128 : Shape := ⟨2, ![8, 128]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S8x8x128 : Shape := ⟨3, ![8, 8, 128]⟩
abbrev S8x1x1 : Shape := ⟨3, ![8, 1, 1]⟩
abbrev S8 : Shape := ⟨1, ![8]⟩

abbrev nBuf : Space → Nat
  | .hbm => 53
  | .vmem => 8
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x8192, .f32⟩
  | .hbm, ⟨4, _⟩ => ⟨S8192x256, .f32⟩
  | .hbm, ⟨5, _⟩ => ⟨S_, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S8192x256, .f32⟩
  | .hbm, ⟨13, _⟩ => ⟨S_, .f32⟩
  | .hbm, ⟨14, _⟩ => ⟨S8192x256, .f32⟩
  | .hbm, ⟨15, _⟩ => ⟨S8192x256, .f32⟩
  | .hbm, ⟨16, _⟩ => ⟨S8192x256, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8192x256, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x256, .f32⟩
  | .hbm, ⟨40, _⟩ => ⟨S8192x256, .f32⟩
  | .hbm, ⟨41, _⟩ => ⟨S8192x256, .bf16⟩
  | .hbm, ⟨42, _⟩ => ⟨S64x128, .f32⟩
  | .hbm, ⟨43, _⟩ => ⟨S8x8x128, .f32⟩
  | .hbm, ⟨44, _⟩ => ⟨S8x1x1, .f32⟩
  | .hbm, ⟨45, _⟩ => ⟨S8, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_call1_v0 : Ref sig .tc := ⟨.hbm, 16, rfl⟩
abbrev main_call1_cst : Ref sig .tc := ⟨.hbm, 17, rfl⟩
abbrev main_call1_v1 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_call2_cst : Ref sig .tc := ⟨.hbm, 24, rfl⟩
abbrev main_call2_v0 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_call3_v0 : Ref sig .tc := ⟨.hbm, 31, rfl⟩
abbrev main_call3_cst : Ref sig .tc := ⟨.hbm, 32, rfl⟩
abbrev main_call3_v1 : Ref sig .tc := ⟨.hbm, 33, rfl⟩
abbrev main_call3_v2 : Ref sig .tc := ⟨.hbm, 34, rfl⟩
abbrev main_v14 : Ref sig .tc := ⟨.hbm, 35, rfl⟩
abbrev main_cst_4 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_5 : Ref sig .tc := ⟨.hbm, 46, rfl⟩
abbrev main_v24 : Ref sig .tc := ⟨.hbm, 47, rfl⟩
abbrev main_cst_6 : Ref sig .tc := ⟨.hbm, 48, rfl⟩
abbrev main_v25 : Ref sig .tc := ⟨.hbm, 49, rfl⟩
abbrev main_cst_7 : Ref sig .tc := ⟨.hbm, 50, rfl⟩
abbrev main_v26 : Ref sig .tc := ⟨.hbm, 51, rfl⟩
abbrev main_v27 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_11 : BitVec 32 := 0#32
  let v27 : BitVec 1 := Scalar.cmpi .ne v26 c0_i32_11
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S8192x256 : S_.BroadcastsInDim S8192x256 (![] : Fin 0 → Fin S8192x256.rank)
  reducesTo_S8192x256_S8192_d1 : S8192x256.ReducesTo [1] S8192
  h_S_ : 0 < S_.numel
  bcast_S_S8192 : S_.BroadcastsInDim S8192 (![] : Fin 0 → Fin S8192.rank)
  reducesTo_S8192_S_d0 : S8192.ReducesTo [0] S_
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bitsLt_bf16_f32 : FTy.bits .bf16 < FTy.bits .f32
  inb_S8x128_S8x128_0_0 : ∀ a, (![0, 0] : Fin 2 → Nat) a + S8x128.size a ≤ S8x128.size a
  h_S8x128 : 0 < S8x128.numel
  shapeCasts_S8x128_S8x128 : S8x128.ShapeCasts S8x128
  h_S1024x256 : 0 < S1024x256.numel
  shapeCasts_S1024x256_S1024x256 : S1024x256.ShapeCasts S1024x256
  inb_S1024x256_S1024x256_0_0 : ∀ a, (![0, 0] : Fin 2 → Nat) a + S1024x256.size a ≤ S1024x256.size a
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  broadcasts_S1x1_S8x128 : S1x1.Broadcasts S8x128
  shapeCasts_S64x128_S8x8x128 : S64x128.ShapeCasts S8x8x128
  slices_S8x8x128_S8x1x1_0_0_0 : S8x8x128.Slices ![0, 0, 0] S8x1x1
  shapeCasts_S8x1x1_S8 : S8x1x1.ShapeCasts S8
  reducesTo_S8_S_d0 : S8.ReducesTo [0] S_
  dot_S1024x256_S1024x256_S1024x1024_1_1_0_0_n_n_wf : DotDims.WF S1024x256 S1024x256 S1024x1024 [1] [1] [0] [0] [] []
  hrank0 : 0 < grid0.rank
  k0_mult1_dvd : ∀ i : grid0.Coords, 16 ∣ (k0_mult1 i).toNat
  k0_off1_inb : ∀ i : grid0.Coords, ∀ a, (k0_off1 i) a + S1024x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S64x128.size a
  hwx0_3 : ∀ i : grid0.Coords, EltTy.bits .f32 = 32 ∨ (Rect.block (s := S64x128) S8x128.size (cc0_transform_3 i) (hinb0_3 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_v19) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S256x8192 : Shape := ⟨2, ![256, 8192]⟩

abbrev nBuf : Space → Nat
  | .hbm => 52
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x8192, .f32⟩
  | .hbm, ⟨4, _⟩ => ⟨S8192x256, .f32⟩
  | .hbm, ⟨5, _⟩ => ⟨S_, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S8192x256, .f32⟩
  | .hbm, ⟨13, _⟩ => ⟨S_, .f32⟩
  | .hbm, ⟨14, _⟩ => ⟨S8192x256, .f32⟩
  | .hbm, ⟨15, _⟩ => ⟨S8192x256, .f32⟩
  | .hbm, ⟨16, _⟩ => ⟨S8192x256, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8192x256, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x256, .f32⟩
  | .hbm, ⟨40, _⟩ => ⟨S8192x256, .f32⟩
  | .hbm, ⟨41, _⟩ => ⟨S256x8192, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_call1_v0 : Ref sig .tc := ⟨.hbm, 16, rfl⟩
abbrev main_call1_cst : Ref sig .tc := ⟨.hbm, 17, rfl⟩
abbrev main_call1_v1 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_call2_cst : Ref sig .tc := ⟨.hbm, 24, rfl⟩
abbrev main_call2_v0 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_call3_v0 : Ref sig .tc := ⟨.hbm, 31, rfl⟩
abbrev main_call3_cst : Ref sig .tc := ⟨.hbm, 32, rfl⟩
abbrev main_call3_v1 : Ref sig .tc := ⟨.hbm, 33, rfl⟩
abbrev main_call3_v2 : Ref sig .tc := ⟨.hbm, 34, rfl⟩
abbrev main_v14 : Ref sig .tc := ⟨.hbm, 35, rfl⟩
abbrev main_cst_4 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_5 : Ref sig .tc := ⟨.hbm, 45, rfl⟩
abbrev main_v23 : Ref sig .tc := ⟨.hbm, 46, rfl⟩
abbrev main_cst_6 : Ref sig .tc := ⟨.hbm, 47, rfl⟩
abbrev main_v24 : Ref sig .tc := ⟨.hbm, 48, rfl⟩
abbrev main_cst_7 : Ref sig .tc := ⟨.hbm, 49, rfl⟩
abbrev main_v25 : Ref sig .tc := ⟨.hbm, 50, rfl⟩
abbrev main_v26 : Ref sig .tc := ⟨.hbm, 51, rfl⟩

abbrev nD : Nat := 1
abbrev τ : Topo := Topo.v7x

variable {F : FTy → Type} [FloatOps F]

class Facts₀ : Prop where
  bcast_S_S8192x256 : S_.BroadcastsInDim S8192x256 (![] : Fin 0 → Fin S8192x256.rank)
  reducesTo_S8192x256_S8192_d1 : S8192x256.ReducesTo [1] S8192
  h_S_ : 0 < S_.numel
  bcast_S_S8192 : S_.BroadcastsInDim S8192 (![] : Fin 0 → Fin S8192.rank)
  reducesTo_S8192_S_d0 : S8192.ReducesTo [0] S_
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  reducesTo_S8192x8192_S_d0_1 : S8192x8192.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.KRuns.lean ====
/-
  The kernel body run on whole memrefs, once per way its two conditionals can go: at the first column tile of a row
  of tiles (the accumulator is reset, then added to), at a middle one (added to), at the last one (added to, then
  copied into the output block). Each run is the body's separation-logic triple; the pieces it leaves in the
  accumulator (and, at the last tile, in the output block) are found by the run itself.
-/
import proofs.«162464_j90563680404074_2_alg».proof.Proof.Gen.Kernel.Launch
import proofs.«162464_j90563680404074_2_alg».proof.Proof.Gen.Kernel.Skeleton
import proofs.«162464_j90563680404074_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions on the column-tile coordinate -/

/-- The first conditional's test: the column-tile coordinate is 0 (the accumulator is reset there). -/
abbrev condFirst (i : grid0.Coords) : Prop := (Scalar.cmpi .ne (Scalar.extui (Scalar.cmpi .eq (BitVec.ofNat 32 (i 1).val) 0#32)) 0#32) = 1#1
/-- It holds at the points ≡ 0 (mod 8). -/
theorem condFirst_iff : ∀ t : Fin cfg0.N, condFirst (grid0.coords t) ↔ t.val % 8 = 0 :=
  (by decide +kernel : ∀ t : Fin grid0.N, condFirst (grid0.coords t) ↔ t.val % 8 = 0)

/-- The second conditional's test: the column-tile coordinate is 7 (the accumulator is copied out there). -/
abbrev condLast (i : grid0.Coords) : Prop := k0_cond2 i = 1#1
/-- It holds at the points ≡ 7 (mod 8). -/
theorem condLast_iff : ∀ t : Fin cfg0.N, condLast (grid0.coords t) ↔ t.val % 8 = 7 :=
  (by decide +kernel : ∀ t : Fin grid0.N, condLast (grid0.coords t) ↔ t.val % 8 = 7)

set_option maxHeartbeats 1000000 in
/-- The body at a point of the first column tile (reset, accumulate, no copy-out): on whole memrefs — the three input
    blocks at their contents, the output's buffer handed back untouched, the accumulator at anything — it runs to the
    continuation with the inputs as they were and the accumulator rewritten; the pieces written are the witness. -/
noncomputable def runFirst (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole) (hc0 : condFirst i) (hc1 : ¬condLast i)
    (x0 : Vec F S1024x256 .bf16) (x1 : Vec F S8192x256 .bf16) (x2 : Vec F S1024x1024 .f32) :
    { LS : List (View.Piece (Elt F) S8x128 .f32) //
      ∀ (xi : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__sim_mse_kernel i arg2 harg2 arg3 harg3 arg4 harg4 arg5 harg5 arg6 harg6) K } := by
  refine ⟨?_, fun xi E K => ?run⟩
  case run =>
    simp only [cc0__sim_mse_kernel_eq_skeleton]; unfold cc0__sim_mse_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- The body at a point of a middle column tile (accumulate only): the accumulator is found at what the point before
    left and is rewritten; the output's buffer is handed back untouched. -/
noncomputable def runMid (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole) (hc0 : ¬condFirst i) (hc1 : ¬condLast i)
    (x0 : Vec F S1024x256 .bf16) (x1 : Vec F S8192x256 .bf16) (x2 : Vec F S1024x1024 .f32) (xs : Vec F S8x128 .f32) :
    { LS : List (View.Piece (Elt F) S8x128 .f32) //
      ∀ (xi : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__sim_mse_kernel i arg2 harg2 arg3 harg3 arg4 harg4 arg5 harg5 arg6 harg6) K } := by
  refine ⟨?_, fun xi E K => ?run⟩
  case run =>
    simp only [cc0__sim_mse_kernel_eq_skeleton]; unfold cc0__sim_mse_kernel_skel
    unfold owns
    iintro ⟨⟨%f0, %hf0, H0⟩, ⟨%f1, %hf1, H1⟩, ⟨%f2, %hf2, H2⟩, ⟨%f3, %hf3, H3⟩, ⟨%fs, %hfs, HS0⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- The body at a point of the last column tile (accumulate, then copy the accumulator out): the accumulator is found
    at what the point before left and is rewritten; the output's buffer, found at anything, is written whole. -/
noncomputable def runLast (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole) (hc0 : ¬condFirst i) (hc1 : condLast i)
    (x0 : Vec F S1024x256 .bf16) (x1 : Vec F S8192x256 .bf16) (x2 : Vec F S1024x1024 .f32) (xs : Vec F S8x128 .f32) :
    Σ' (LO : List (View.Piece (Elt F) S8x128 .f32)), { LS : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc0__sim_mse_kernel i arg2 harg2 arg3 harg3 arg4 harg4 arg5 harg5 arg6 harg6) K } := by
  refine ⟨?_, ?_, fun E K => ?run⟩
  case run =>
    simp only [cc0__sim_mse_kernel_eq_skeleton]; unfold cc0__sim_mse_kernel_skel
    unfold owns
    iintro ⟨⟨%f0, %hf0, H0⟩, ⟨%f1, %hf1, H1⟩, ⟨%f2, %hf2, H2⟩, ⟨%d3, %f3, -, H3⟩, ⟨%fs, %hfs, HS0⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS0

end Cert.Kernel.Hand

end
-- ==== Proof.KCases.lean ====
/-
  What the accumulator and the output block hold after each grid point, and the body's obligation to the pipeline.

  The grid is 8 × 8, walked row of tiles by row of tiles: point t is tile (t / 8, t % 8). The accumulator is a
  scratch block carried from point to point: reset and added to at the first tile of a row, added to at the others,
  copied into the output block at the last. The output block is written back to the result array only there.
-/
import proofs.«162464_j90563680404074_2_alg».proof.Proof.KRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- The host operations before the region, stretch by stretch. -/
abbrev preOps : List (List (HloOp τ sig (Elt F))) :=
  [hostOps0, hostOps0_1, hostOps0_2, hostOps0_3, hostOps0_4, hostOps0_5, hostOps0_6, hostOps0_7, hostOps0_8]

/-- Core `c`'s buffer contents when the region is entered: after the host operations before it. -/
abbrev V0 (c : Dev nD) : Valuation τ sig (Elt F) := StableHlo.after (List.flatten preOps) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## Idle and live points of the windows -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
/-- Where the body does not copy the accumulator out, the output block is idle -/
theorem idleAt3 : ∀ t : Fin cfg0.N, ¬condLast (grid0.coords t) → cfg0.idle 3 (grid0.coords t) = true := by decide +kernel
/-- and is not written back; -/
theorem noFlush3 : ∀ t : Fin cfg0.N, ¬condLast (grid0.coords t) → (cfg0.win 3).flush t = false := by decide +kernel
/-- where it does, the block is live. -/
theorem liveAt3 : ∀ t : Fin cfg0.N, condLast (grid0.coords t) → cfg0.idle 3 (grid0.coords t) = false := by decide +kernel

/-! ## The memrefs the pipeline calls the body with -/

abbrev VO : View sig .tc .vmem S8x128 .f32 := (Memref.whole cc0_stg3_0 : Memref sig .tc .vmem S8x128 .f32).view
abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x128 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM : Memref sig .tc .vmem S8x128 .f32 := Memref.whole cc0_scratch0
abbrev VS : View sig .tc .vmem S8x128 .f32 := scM.view

/-- The invariant the launch hands the region: the accumulator at anything, the generator register at some state. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What each case leaves -/

theorem coverFirst (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole) (hc0 : condFirst i) (hc1 : ¬condLast i) (x0 : Vec F S1024x256 .bf16) (x1 : Vec F S8192x256 .bf16) (x2 : Vec F S1024x1024 .f32) (y : S8x128.Idx) :
    ∃ pc ∈ (runFirst (F := F) c i arg2 harg2 arg3 harg3 arg4 harg4 arg5 harg5 arg6 harg6 hc0 hc1 x0 x1 x2).1, y ∈ pc.1.set :=
  View.cover_of_tiledL (runFirst (F := F) c i arg2 harg2 arg3 harg3 arg4 harg4 arg5 harg5 arg6 harg6 hc0 hc1 x0 x1 x2).1 S8x128.size (by sl_kernel_rfl) y

/-- What the first-tile case leaves in the accumulator. -/
def accFirst (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole) (hc0 : condFirst i) (hc1 : ¬condLast i) (x0 : Vec F S1024x256 .bf16) (x1 : Vec F S8192x256 .bf16) (x2 : Vec F S1024x1024 .f32) : Vec F S8x128 .f32 :=
  VS.read (Elt F) (VS.writes (Elt F) VS.junk (runFirst (F := F) c i arg2 harg2 arg3 harg3 arg4 harg4 arg5 harg5 arg6 harg6 hc0 hc1 x0 x1 x2).1)

theorem coverMid (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole) (hc0 : ¬condFirst i) (hc1 : ¬condLast i) (x0 : Vec F S1024x256 .bf16) (x1 : Vec F S8192x256 .bf16) (x2 : Vec F S1024x1024 .f32) (xs : Vec F S8x128 .f32) (y : S8x128.Idx) :
    ∃ pc ∈ (runMid (F := F) c i arg2 harg2 arg3 harg3 arg4 harg4 arg5 harg5 arg6 harg6 hc0 hc1 x0 x1 x2 xs).1, y ∈ pc.1.set :=
  View.cover_of_tiledL (runMid (F := F) c i arg2 harg2 arg3 harg3 arg4 harg4 arg5 harg5 arg6 harg6 hc0 hc1 x0 x1 x2 xs).1 S8x128.size (by sl_kernel_rfl) y

/-- What a middle-tile case leaves in the accumulator. -/
def accMid (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole) (hc0 : ¬condFirst i) (hc1 : ¬condLast i) (x0 : Vec F S1024x256 .bf16) (x1 : Vec F S8192x256 .bf16) (x2 : Vec F S1024x1024 .f32) (xs : Vec F S8x128 .f32) : Vec F S8x128 .f32 :=
  VS.read (Elt F) (VS.writes (Elt F) VS.junk (runMid (F := F) c i arg2 harg2 arg3 harg3 arg4 harg4 arg5 harg5 arg6 harg6 hc0 hc1 x0 x1 x2 xs).1)

theorem coverLastOut (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole) (hc0 : ¬condFirst i) (hc1 : condLast i) (x0 : Vec F S1024x256 .bf16) (x1 : Vec F S8192x256 .bf16) (x2 : Vec F S1024x1024 .f32) (xs : Vec F S8x128 .f32) (y : S8x128.Idx) :
    ∃ pc ∈ (runLast (F := F) c i arg2 harg2 arg3 harg3 arg4 harg4 arg5 harg5 arg6 harg6 hc0 hc1 x0 x1 x2 xs).1, y ∈ pc.1.set :=
  View.cover_of_tiledL (runLast (F := F) c i arg2 harg2 arg3 harg3 arg4 harg4 arg5 harg5 arg6 harg6 hc0 hc1 x0 x1 x2 xs).1 S8x128.size (by sl_kernel_rfl) y

/-- What the last-tile case leaves in the output block. -/
def outLast (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole) (hc0 : ¬condFirst i) (hc1 : condLast i) (x0 : Vec F S1024x256 .bf16) (x1 : Vec F S8192x256 .bf16) (x2 : Vec F S1024x1024 .f32) (xs : Vec F S8x128 .f32) : Vec F S8x128 .f32 :=
  VO.read (Elt F) (VO.writes (Elt F) VO.junk (runLast (F := F) c i arg2 harg2 arg3 harg3 arg4 harg4 arg5 harg5 arg6 harg6 hc0 hc1 x0 x1 x2 xs).1)

theorem coverLastAcc (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole) (hc0 : ¬condFirst i) (hc1 : condLast i) (x0 : Vec F S1024x256 .bf16) (x1 : Vec F S8192x256 .bf16) (x2 : Vec F S1024x1024 .f32) (xs : Vec F S8x128 .f32) (y : S8x128.Idx) :
    ∃ pc ∈ (runLast (F := F) c i arg2 harg2 arg3 harg3 arg4 harg4 arg5 harg5 arg6 harg6 hc0 hc1 x0 x1 x2 xs).2.1, y ∈ pc.1.set :=
  View.cover_of_tiledL (runLast (F := F) c i arg2 harg2 arg3 harg3 arg4 harg4 arg5 harg5 arg6 harg6 hc0 hc1 x0 x1 x2 xs).2.1 S8x128.size (by sl_kernel_rfl) y

/-- What the last-tile case leaves in the accumulator. -/
def accLast (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole) (hc0 : ¬condFirst i) (hc1 : condLast i) (x0 : Vec F S1024x256 .bf16) (x1 : Vec F S8192x256 .bf16) (x2 : Vec F S1024x1024 .f32) (xs : Vec F S8x128 .f32) : Vec F S8x128 .f32 :=
  VS.read (Elt F) (VS.writes (Elt F) VS.junk (runLast (F := F) c i arg2 harg2 arg3 harg3 arg4 harg4 arg5 harg5 arg6 harg6 hc0 hc1 x0 x1 x2 xs).2.1)

end Cert.Kernel.Hand

end
-- ==== Proof.KBody.lean ====
/-
  The accumulation over the grid, the pipeline's proof data, and the body's obligation at every point.
-/
import proofs.«162464_j90563680404074_2_alg».proof.Proof.KCases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output block and the accumulator hold after each point -/

/-- THE ACCUMULATION: the pair (output block, accumulator) after the body at position `n`. At a point ≡ 0 (mod 8)
    the accumulator restarts from the reset value; elsewhere it continues from what the point before left; at a
    point ≡ 7 (mod 8) the output block receives it. Where the output block is idle its component is the
    accumulator's (nothing consults it there). -/
def accAt (c : Dev nD) : (n : ℕ) → n < cfg0.N → Vec F S8x128 .f32 × Vec F S8x128 .f32
  | 0, hn => (accFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM (Memref.isWhole_whole _) ((condFirst_iff ⟨0, hn⟩).mpr (Nat.zero_mod _)) (fun h => (fun h => by (try dsimp only at h); omega) ((condLast_iff ⟨0, hn⟩).mp h)) (iblk m c 0 ⟨0, hn⟩) (iblk m c 1 ⟨0, hn⟩) (iblk m c 2 ⟨0, hn⟩), accFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM (Memref.isWhole_whole _) ((condFirst_iff ⟨0, hn⟩).mpr (Nat.zero_mod _)) (fun h => (fun h => by (try dsimp only at h); omega) ((condLast_iff ⟨0, hn⟩).mp h)) (iblk m c 0 ⟨0, hn⟩) (iblk m c 1 ⟨0, hn⟩) (iblk m c 2 ⟨0, hn⟩))
  | n + 1, hn =>
    if h0 : (n + 1) % 8 = 0 then
      if h1 : (n + 1) % 8 = 7 then
        False.elim (by omega)
      else
        (accFirst c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM (Memref.isWhole_whole _) ((condFirst_iff ⟨n + 1, hn⟩).mpr h0) (fun h => h1 ((condLast_iff ⟨n + 1, hn⟩).mp h)) (iblk m c 0 ⟨n + 1, hn⟩) (iblk m c 1 ⟨n + 1, hn⟩) (iblk m c 2 ⟨n + 1, hn⟩), accFirst c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM (Memref.isWhole_whole _) ((condFirst_iff ⟨n + 1, hn⟩).mpr h0) (fun h => h1 ((condLast_iff ⟨n + 1, hn⟩).mp h)) (iblk m c 0 ⟨n + 1, hn⟩) (iblk m c 1 ⟨n + 1, hn⟩) (iblk m c 2 ⟨n + 1, hn⟩))
    else
      if h1 : (n + 1) % 8 = 7 then
        (outLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM (Memref.isWhole_whole _) (fun h => h0 ((condFirst_iff ⟨n + 1, hn⟩).mp h)) ((condLast_iff ⟨n + 1, hn⟩).mpr h1) (iblk m c 0 ⟨n + 1, hn⟩) (iblk m c 1 ⟨n + 1, hn⟩) (iblk m c 2 ⟨n + 1, hn⟩) (accAt c n (Nat.lt_of_succ_lt hn)).2, accLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM (Memref.isWhole_whole _) (fun h => h0 ((condFirst_iff ⟨n + 1, hn⟩).mp h)) ((condLast_iff ⟨n + 1, hn⟩).mpr h1) (iblk m c 0 ⟨n + 1, hn⟩) (iblk m c 1 ⟨n + 1, hn⟩) (iblk m c 2 ⟨n + 1, hn⟩) (accAt c n (Nat.lt_of_succ_lt hn)).2)
      else
        (accMid c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM (Memref.isWhole_whole _) (fun h => h0 ((condFirst_iff ⟨n + 1, hn⟩).mp h)) (fun h => h1 ((condLast_iff ⟨n + 1, hn⟩).mp h)) (iblk m c 0 ⟨n + 1, hn⟩) (iblk m c 1 ⟨n + 1, hn⟩) (iblk m c 2 ⟨n + 1, hn⟩) (accAt c n (Nat.lt_of_succ_lt hn)).2, accMid c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM (Memref.isWhole_whole _) (fun h => h0 ((condFirst_iff ⟨n + 1, hn⟩).mp h)) (fun h => h1 ((condLast_iff ⟨n + 1, hn⟩).mp h)) (iblk m c 0 ⟨n + 1, hn⟩) (iblk m c 1 ⟨n + 1, hn⟩) (iblk m c 2 ⟨n + 1, hn⟩) (accAt c n (Nat.lt_of_succ_lt hn)).2)

/-- `accAt` at a first-tile point. -/
theorem accAt_first (c : Dev nD) (t : Fin cfg0.N) (h0 : t.val % 8 = 0) (h1 : ¬t.val % 8 = 7) :
    accAt m c t.val t.isLt = (accFirst c (grid0.coords t) (ms0_0 t) (hs0_0 t) (ms0_1 t) (hs0_1 t) (ms0_2 t) (hs0_2 t) (ms0_3 t) (hs0_3 t) scM (Memref.isWhole_whole _) ((condFirst_iff t).mpr h0) (fun h => h1 ((condLast_iff t).mp h)) (iblk m c 0 t) (iblk m c 1 t) (iblk m c 2 t), accFirst c (grid0.coords t) (ms0_0 t) (hs0_0 t) (ms0_1 t) (hs0_1 t) (ms0_2 t) (hs0_2 t) (ms0_3 t) (hs0_3 t) scM (Memref.isWhole_whole _) ((condFirst_iff t).mpr h0) (fun h => h1 ((condLast_iff t).mp h)) (iblk m c 0 t) (iblk m c 1 t) (iblk m c 2 t)) := by
  obtain ⟨n, hn⟩ := t
  cases n with
  | zero => exact rfl
  | succ n => exact (dif_pos h0).trans ((dif_neg h1).trans rfl)

/-- `accAt` at a middle-tile point: over what the point before left. -/
theorem accAt_mid (c : Dev nD) (t : Fin cfg0.N) (h0 : ¬t.val % 8 = 0) (h1 : ¬t.val % 8 = 7) :
    accAt m c t.val t.isLt = (accMid c (grid0.coords t) (ms0_0 t) (hs0_0 t) (ms0_1 t) (hs0_1 t) (ms0_2 t) (hs0_2 t) (ms0_3 t) (hs0_3 t) scM (Memref.isWhole_whole _) (fun h => h0 ((condFirst_iff t).mp h)) (fun h => h1 ((condLast_iff t).mp h)) (iblk m c 0 t) (iblk m c 1 t) (iblk m c 2 t) (accAt m c (t.val - 1) (Nat.lt_of_le_of_lt (Nat.sub_le _ _) t.isLt)).2, accMid c (grid0.coords t) (ms0_0 t) (hs0_0 t) (ms0_1 t) (hs0_1 t) (ms0_2 t) (hs0_2 t) (ms0_3 t) (hs0_3 t) scM (Memref.isWhole_whole _) (fun h => h0 ((condFirst_iff t).mp h)) (fun h => h1 ((condLast_iff t).mp h)) (iblk m c 0 t) (iblk m c 1 t) (iblk m c 2 t) (accAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `accAt` at a last-tile point: over what the point before left. -/
theorem accAt_last (c : Dev nD) (t : Fin cfg0.N) (h0 : ¬t.val % 8 = 0) (h1 : t.val % 8 = 7) :
    accAt m c t.val t.isLt = (outLast c (grid0.coords t) (ms0_0 t) (hs0_0 t) (ms0_1 t) (hs0_1 t) (ms0_2 t) (hs0_2 t) (ms0_3 t) (hs0_3 t) scM (Memref.isWhole_whole _) (fun h => h0 ((condFirst_iff t).mp h)) ((condLast_iff t).mpr h1) (iblk m c 0 t) (iblk m c 1 t) (iblk m c 2 t) (accAt m c (t.val - 1) (Nat.lt_of_le_of_lt (Nat.sub_le _ _) t.isLt)).2, accLast c (grid0.coords t) (ms0_0 t) (hs0_0 t) (ms0_1 t) (hs0_1 t) (ms0_2 t) (hs0_2 t) (ms0_3 t) (hs0_3 t) scM (Memref.isWhole_whole _) (fun h => h0 ((condFirst_iff t).mp h)) ((condLast_iff t).mpr h1) (iblk m c 0 t) (iblk m c 1 t) (iblk m c 2 t) (accAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the accumulator at anything; afterwards at what
    the point before left in it; the generator register at some state throughout. -/
def PhiS (c : Dev nD) : (n : ℕ) → n ≤ cfg0.N → sProp 𝕄
  | 0, _ => Pipeline.ΦA spec0 c
  | n + 1, hn => iprop(iprop(owns (c : Thread nD τ) scM fullShare ((accAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((accAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((accAt m c (n - 1) (by omega)).2)) ∗ (∃ r, prngReg c r)) := by
  cases n with
  | zero => exact absurd rfl hz
  | succ n => rfl

/-! ## The pipeline's proof data -/

/-- The proof data on core `c`: the arrays as the region finds them; after the body each input's buffer at its block
    and the output's at `accAt`'s first component; the invariant `PhiS`; nothing owed. The two windows that read the
    normalised rows hold that one array at complementary half shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (accAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (accAt m c t.val t.isLt).1 := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' memrefs hold their blocks; the closed forms of the two conditions say which
    case the point is in; the invariant hands the body the accumulator at what the point before left (at anything at
    the very first point) and takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0 t], after0]
  rw [show (dats m 0 c).leavesExact 1 t = owns (c : Thread nD τ) (ms0_1 t) fullShare ((dats m 0 c).after 1 t) from by
    unfold Dat.leavesExact; rw [liveAt1 t], after1]
  rw [show (dats m 0 c).leavesExact 2 t = owns (c : Thread nD τ) (ms0_2 t) fullShare ((dats m 0 c).after 2 t) from by
    unfold Dat.leavesExact; rw [liveAt2 t], after2]
  by_cases h0 : t.val % 8 = 0
  · have h1 : ¬t.val % 8 = 7 := by omega
    rw [Dat.leavesExact_idle (dats m 0 c) 3 t (idleAt3 t (fun h => h1 ((condLast_iff t).mp h))) (noFlush3 t (fun h => h1 ((condLast_iff t).mp h)))]
    rw [accAt_first m c t h0 h1]
    unfold accFirst; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩⟩
      iapply ((runFirst c (grid0.coords t) _ _ _ _ _ _ _ _ _ _ ((condFirst_iff t).mpr h0) (fun h => h1 ((condLast_iff t).mp h)) (iblk m c 0 t) (iblk m c 1 t) (iblk m c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (coverFirst c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS0, Hg⟩, Ho, ⟨%d0, H0⟩, ⟨%d1, H1⟩, ⟨%d2, H2⟩, ⟨%d3, H3⟩⟩
      iapply ((runFirst c (grid0.coords t) _ _ _ _ _ _ _ _ _ _ ((condFirst_iff t).mpr h0) (fun h => h1 ((condLast_iff t).mp h)) (iblk m c 0 t) (iblk m c 1 t) (iblk m c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (coverFirst c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dats m 0 c).leavesExact 3 t = owns (c : Thread nD τ) (ms0_3 t) fullShare ((dats m 0 c).after 3 t) from by
        unfold Dat.leavesExact; rw [liveAt3 t ((condLast_iff t).mpr h1)], after3]
      rw [accAt_last m c t h0 h1]
      unfold outLast accLast; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((runLast c (grid0.coords t) _ _ _ _ _ _ _ _ _ _ (fun h => h0 ((condFirst_iff t).mp h)) ((condLast_iff t).mpr h1) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (coverLastAcc c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLastOut c _ _ _ _ _ _ _ _ _ _ _ _ _ _ _ _ _)
    · rw [Dat.leavesExact_idle (dats m 0 c) 3 t (idleAt3 t (fun h => h1 ((condLast_iff t).mp h))) (noFlush3 t (fun h => h1 ((condLast_iff t).mp h)))]
      rw [accAt_mid m c t h0 h1]
      unfold accMid; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((runMid c (grid0.coords t) _ _ _ _ _ _ _ _ _ _ (fun h => h0 ((condFirst_iff t).mp h)) (fun h => h1 ((condLast_iff t).mp h)) (iblk m c 0 t) (iblk m c 1 t) (iblk m c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (coverMid c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

end Cert.Kernel.Hand

end
-- ==== Proof.KFrame.lean ====
/-
  The run of @main: the host operations before the region, the region, the host operations after it.

  Two of the kernel's four windows read ONE array (the normalised rows): the region holds that array at two
  complementary half shares, one per window, dealt at entry and rejoined at exit. For the host operations after the
  region the arrays are regarded through three windows on three distinct arrays (the normalised rows, the targets, the
  result).
-/
import proofs.«162464_j90563680404074_2_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem preOps_sub : (preOps (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub⟩

theorem preOps_fresh : (preOps (F := F)).Forall fun ops => ops.Forall fun op => op.fresh = ∅ := by
  simp only [List.Forall]; repeat' constructor

theorem hostOps1_fresh : (hostOps1 : List (HloOp τ sig (Elt F))).Forall fun op => op.fresh = ∅ := by
  simp only [List.Forall]; repeat' constructor

/-- @main reduces to the region continued by the later host operations, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1] preOps_sub preOps_fresh main_chain

/-! ## Three windows on three distinct arrays -/

/-- The windows on the normalised rows (one of the two), the targets and the result. -/
abbrev winD : Fin 3 → Pipeline.WinSpec sig grid0.rank := fun | 0 => spec0 0 | 1 => spec0 2 | 2 => spec0 3 | ⟨_ + 3, h⟩ => absurd h (Nat.not_lt.2 (Nat.le_add_left _ _))

theorem winD_inj : Function.Injective (Pipeline.arrRef winD) := by decide
theorem winD_unscoped : ∀ w, (Pipeline.arrRef winD w).isScoped = false := by decide
theorem winD_image : Finset.univ.image (Pipeline.arrRef winD) = Finset.univ.image (Pipeline.arrRef spec0) := by decide

theorem bigSep_W3 {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

/-- The arrays' contents when the region is left: the two inputs as found, the result as the write-backs leave it. -/
def AD (c : Dev nD) : (w : Fin 3) → Buf (Elt F) ((winD w).arr.view.loc (c : Thread nD τ))
  | ⟨0, _⟩ => V m c main_v19
  | ⟨1, _⟩ => V m c main_arg3
  | ⟨2, _⟩ => (dats m 0 c).arrAt 3 cfg0.N

/-- Core `c`'s buffer contents after the host operations that follow the region. -/
def AT (c : Dev nD) (b : Ref sig .tc) : Buf (Elt F) ((c : Thread nD τ).loc b) :=
  StableHlo.after (List.flatten [hostOps1]) (Pipeline.withArrays winD c (V0 m c) (AD m c)) (Proc.devRef .tc b)

theorem sfx_sub : ∀ ops ∈ ([hostOps1] : List (List (HloOp τ sig (Elt F)))), ∀ op ∈ ops,
    op.bufs ⊆ Pipeline.tailRefs sig Pipeline.Prefetch.none winD := by
  rw [Pipeline.tailRefs_none winD winD_unscoped]
  intro ops hops op hop
  simp only [List.mem_cons, List.mem_nil_iff, or_false] at hops
  rcases hops with rfl
  · exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

theorem sfx_keeps : ∀ ops ∈ ([hostOps1] : List (List (HloOp τ sig (Elt F)))), ∀ op ∈ ops,
    ∀ w, Proc.devRef .tc (Pipeline.arrRef winD w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl
    all_goals intro w; fin_cases w <;> simp only [StableHlo.nullary_writes, StableHlo.unary_writes, StableHlo.binary_writes, StableHlo.reshape_writes, Finset.mem_singleton] <;> exact StableHlo.devRef_ne_of_ne (by decide)

/-! ## The one array behind two windows: dealt at entry, rejoined at exit -/

/-- The shares the region holds its arrays at: the two windows on the normalised rows a half each. -/
theorem share0 (c : Dev nD) : (dats m 0 c).share (0 : Fin 4) = fullShare.left := by
  unfold Dat.share; rw [show (cfg0.win 0).isOut = false from rfl, if_neg Bool.false_ne_true]; dsimp only [dats]
theorem share1 (c : Dev nD) : (dats m 0 c).share (1 : Fin 4) = fullShare.right := by
  unfold Dat.share; rw [show (cfg0.win 1).isOut = false from rfl, if_neg Bool.false_ne_true]; dsimp only [dats]
theorem share2 (c : Dev nD) : (dats m 0 c).share (2 : Fin 4) = fullShare := by
  unfold Dat.share; rw [show (cfg0.win 2).isOut = false from rfl, if_neg Bool.false_ne_true]; dsimp only [dats]
theorem share3 (c : Dev nD) : (dats m 0 c).share (3 : Fin 4) = fullShare := by
  unfold Dat.share; rw [show (cfg0.win 3).isOut = true from rfl, if_pos rfl]

set_option maxHeartbeats 4000000 in
/-- The region's arrays at contents that agree on the shared array ARE the three distinct arrays held whole:
    the shared one's two half shares make its full share. -/
theorem arrays_iff (c : Dev nD) (Fa : (w : Fin cfg0.W) → Buf (Elt F) ((cfg0.win w).arr.view.loc (c : Thread nD τ)))
    (Ga : (w : Fin 3) → Buf (Elt F) ((winD w).arr.view.loc (c : Thread nD τ)))
    (h0 : Fa 0 = Ga 0) (h1 : Fa 1 = Ga 0) (h2 : Fa 2 = Ga 1) (h3 : Fa 3 = Ga 2) :
    ((dats m 0 c).arrays Fa : sProp 𝕄) ⊣⊢ Pipeline.arrPts winD c Ga := by
  unfold Dat.arrays Pipeline.arrPts
  rw [bigSep_W0, bigSep_W3]
  rw [(arr_whole0 0).set_eq_univ, (arr_whole0 2).set_eq_univ, (arr_whole0 3).set_eq_univ, h0, h1, h2, h3]
  simp only [share0, share1, share2, share3]
  have hs : (((c : Thread nD τ).loc main_v19) ↦[Finset.univ]{fullShare} Ga 0 : sProp 𝕄) ⊣⊢ iprop((((c : Thread nD τ).loc main_v19) ↦[Finset.univ]{fullShare.left} Ga 0) ∗ ((c : Thread nD τ).loc main_v19) ↦[Finset.univ]{fullShare.right} Ga 0) :=
    pointsTo_share (PosShare.mem_left_op_right fullShare)
  constructor
  · iintro ⟨Ha, Hb, Hc, Hd⟩
    isplitl [Ha Hb]
    · iapply hs.2; isplitl [Ha]; · iexact Ha
      iexact Hb
    isplitl [Hc]; · iexact Hc
    iexact Hd
  · iintro ⟨Hab, Hc, Hd⟩
    ihave H := hs.1 $$ Hab
    icases H with ⟨Ha, Hb⟩
    isplitl [Ha]; · iexact Ha
    isplitl [Hb]; · iexact Hb
    isplitl [Hc]; · iexact Hc
    iexact Hd

/-! ## The run -/

theorem restP_eq (c : Dev nD) (X : (b : Ref sig .tc) → Buf (Elt F) ((c : Thread nD τ).loc b)) :
    (Pipeline.unscopedRestP (Ix := Unit) (Name := ℕ) (U := UR sig nD τ) (Lvl := ℕ) Pipeline.Prefetch.none spec0 c X : sProp 𝕄)
      = Pipeline.unscopedRestP Pipeline.Prefetch.none winD c X := by
  unfold Pipeline.unscopedRestP; rw [winD_image]

/-- The distinct buffers behind the region's arrays are the three windows' arrays. -/
theorem arrBufs_eq (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = Pipeline.arrPts winD c (fun w => X (Pipeline.arrRef winD w)) := by
  unfold Pipeline.arrBufs Pipeline.arrPts
  rw [← winD_image, show Finset.image (Pipeline.arrRef winD) Finset.univ = Finset.univ.map ⟨Pipeline.arrRef winD, winD_inj⟩ from (Finset.map_eq_image (⟨Pipeline.arrRef winD, winD_inj⟩ : Fin 3 ↪ Ref sig .tc) Finset.univ).symm, bigSep_map]
  rfl

/-- At entry the shared array is dealt to its two windows. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  rw [arrBufs_eq]
  exact (arrays_iff m c _ _ rfl rfl rfl rfl).2

/-- The arrays when the region is left, window by window. -/
theorem exit0 (c : Dev nD) : (dats m 0 c).arrAt 0 cfg0.N = AD m c 0 := ((dats m 0 c).arrAt_in 0 rfl _).trans rfl
theorem exit1 (c : Dev nD) : (dats m 0 c).arrAt 1 cfg0.N = AD m c 0 := ((dats m 0 c).arrAt_in 1 rfl _).trans rfl
theorem exit2 (c : Dev nD) : (dats m 0 c).arrAt 2 cfg0.N = AD m c 1 := ((dats m 0 c).arrAt_in 2 rfl _).trans rfl

-- the launch theorem's implicit arguments are found by unifying its conclusion with this one, which takes unfolding
-- plain definitions in a metavariable's type
set_option backward.isDefEq.respectTransparency.types false in
/-- From any memory with zero counters every weakly fair execution of @main on the TensorCore terminates, and every
    final state has each of the region's arrays at what the write-backs leave and every other unscoped buffer at
    what the host operations after the region leave. -/
theorem run_main : θ_run defs (onTc (τ := τ) (main (F := F))) (s₀ m ρ)
    (fun r => ∀ c : Dev nD, (∀ w : Fin cfg0.W, r.2.mem ((spec0 w).arr.view.loc (c : Thread nD τ)) = (dats m 0 c).arrAt w cfg0.N)
      ∧ ∀ b ∈ Pipeline.restRefsP sig Pipeline.Prefetch.none winD, r.2.mem ((c : Thread nD τ).loc b) = AT m c b) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none winD c (V m c))
    (Z' := fun c => Pipeline.unscopedRestP (Ix := Unit) (Name := ℕ) (U := UR sig nD τ) (Lvl := ℕ) Pipeline.Prefetch.none winD c (AT m c))
    (hX := fun c => by
      iintro ⟨HU, -, -, -, Hp, -⟩; imodintro
      isplitl [Hp]; · iexists _; iexact Hp
      iapply (Entails.of_eq (restP_eq c (V m c))); iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => by
      have hiff := arrays_iff m c (fun w => (dats m 0 c).arrAt w cfg0.N) (AD m c) (exit0 m c) (exit1 m c) (exit2 m c) rfl
      have h := Pipeline.tail_seqs (fun q => (cfgs q).toPCfg (Val := Elt F)) defs₀ Variants.none Pipeline.Prefetch.none winD winD_inj c (V0 m c) (AD m c)
        [hostOps1] sfx_sub sfx_fresh sfx_keeps Q'
      iintro ⟨Hk, Hb, Ha, HZ⟩
      iapply h
      isplitl [Hk]
      · iintro ⟨Ha, HZ'⟩; iapply Hk
        isplitl [Ha]; · iapply hiff.2; iexact Ha
        iexact HZ'
      isplitl [Hb]; · iexact Hb
      isplitl [Ha]; · iapply hiff.1; iexact Ha
      iexact HZ)
    (QY := fun c s => ∀ b ∈ Pipeline.restRefsP sig Pipeline.Prefetch.none winD, s.mem ((c : Thread nD τ).loc b) = AT m c b)
    (hY := fun c s' => by
      iintro ⟨-, HU, HSI⟩
      unfold Pipeline.unscopedRestP
      imodintro
      iapply (pointsTo_read_all (Pipeline.restRefsP sig Pipeline.Prefetch.none winD) (fun b => (c : Thread nD τ).loc b) (AT m c) s')
      isplitl [HU] <;> iassumption)
    (hQ := fun s h c => ⟨(h c).1, (h c).2.2⟩)

end Cert.Kernel.Hand

end
-- ==== Proof.KTail.lean ====
/-
  The argument arrays are untouched: no host operation writes them and the region only reads them.
-/
import proofs.«162464_j90563680404074_2_alg».proof.Proof.KFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- The region finds each argument array as launched. -/
theorem V_arg0 (c : Dev nD) : V m c main_arg0 = m ((c : Thread nD τ).loc main_arg0) := by
  dsimp only [V, V0]
  simp only [preOps, hostOps0, hostOps0_1, hostOps0_2, hostOps0_3, hostOps0_4, hostOps0_5, hostOps0_6, hostOps0_7, hostOps0_8, List.flatten_cons, List.flatten_nil, List.append_nil, List.cons_append, List.nil_append]
  after_results
theorem V_arg1 (c : Dev nD) : V m c main_arg1 = m ((c : Thread nD τ).loc main_arg1) := by
  dsimp only [V, V0]
  simp only [preOps, hostOps0, hostOps0_1, hostOps0_2, hostOps0_3, hostOps0_4, hostOps0_5, hostOps0_6, hostOps0_7, hostOps0_8, List.flatten_cons, List.flatten_nil, List.append_nil, List.cons_append, List.nil_append]
  after_results
theorem V_arg2 (c : Dev nD) : V m c main_arg2 = m ((c : Thread nD τ).loc main_arg2) := by
  dsimp only [V, V0]
  simp only [preOps, hostOps0, hostOps0_1, hostOps0_2, hostOps0_3, hostOps0_4, hostOps0_5, hostOps0_6, hostOps0_7, hostOps0_8, List.flatten_cons, List.flatten_nil, List.append_nil, List.cons_append, List.nil_append]
  after_results
theorem V_arg3 (c : Dev nD) : V m c main_arg3 = m ((c : Thread nD τ).loc main_arg3) := by
  dsimp only [V, V0]
  simp only [preOps, hostOps0, hostOps0_1, hostOps0_2, hostOps0_3, hostOps0_4, hostOps0_5, hostOps0_6, hostOps0_7, hostOps0_8, List.flatten_cons, List.flatten_nil, List.append_nil, List.cons_append, List.nil_append]
  after_results

/-- The host operations after the region leave them so. -/
theorem AT_arg0 (c : Dev nD) : AT m c main_arg0 = m ((c : Thread nD τ).loc main_arg0) := by
  unfold AT
  simp only [hostOps1, List.flatten_cons, List.flatten_nil, List.append_nil]
  after_results
  rw [Pipeline.withArrays_of_ne winD c (V0 m c) (AD m c) main_arg0 (by decide)]
  exact V_arg0 m c
theorem AT_arg1 (c : Dev nD) : AT m c main_arg1 = m ((c : Thread nD τ).loc main_arg1) := by
  unfold AT
  simp only [hostOps1, List.flatten_cons, List.flatten_nil, List.append_nil]
  after_results
  rw [Pipeline.withArrays_of_ne winD c (V0 m c) (AD m c) main_arg1 (by decide)]
  exact V_arg1 m c
theorem AT_arg2 (c : Dev nD) : AT m c main_arg2 = m ((c : Thread nD τ).loc main_arg2) := by
  unfold AT
  simp only [hostOps1, List.flatten_cons, List.flatten_nil, List.append_nil]
  after_results
  rw [Pipeline.withArrays_of_ne winD c (V0 m c) (AD m c) main_arg2 (by decide)]
  exact V_arg2 m c

theorem mem_rest (b : Ref sig .tc) (hs : b.isScoped = false) (ha : ∀ w, (winD w).arr.view.ref ≠ b) :
    b ∈ Pipeline.restRefsP sig Pipeline.Prefetch.none winD :=
  Finset.mem_sdiff.mpr ⟨Pipeline.mem_restRefs_of b hs ha, fun h => by
    obtain ⟨k, -, -⟩ := Finset.mem_image.mp h
    exact k.elim0⟩

/-- THE FRAME: every weakly fair execution of @main terminates, nothing faulting, with the four argument arrays as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (mem_rest main_arg0 (by decide) (by decide))).trans (AT_arg0 m c),
     ((h c).2 main_arg1 (mem_rest main_arg1 (by decide) (by decide))).trans (AT_arg1 m c),
     ((h c).2 main_arg2 (mem_rest main_arg2 (by decide) (by decide))).trans (AT_arg2 m c),
     (((h c).1 2).trans (exit2 m c)).trans (V_arg3 m c)⟩) (run_main m ρ)

end Cert.Kernel.Hand

end
-- ==== Proof.KIRuns.lean ====
/-
  The kernel body run on whole memrefs, once per way its two conditionals can go: at the first column tile of a row
  of tiles (the accumulator is reset, then added to), at a middle one (added to), at the last one (added to, then
  copied into the output block). Each run is the body's separation-logic triple; the pieces it leaves in the
  accumulator (and, at the last tile, in the output block) are found by the run itself.
-/
import proofs.«162464_j90563680404074_2_alg».proof.Proof.Gen.KernelIdeal.Launch
import proofs.«162464_j90563680404074_2_alg».proof.Proof.Gen.KernelIdeal.Skeleton
import proofs.«162464_j90563680404074_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions on the column-tile coordinate -/

/-- The first conditional's test: the column-tile coordinate is 0 (the accumulator is reset there). -/
abbrev condFirst (i : grid0.Coords) : Prop := (Scalar.cmpi .ne (Scalar.extui (Scalar.cmpi .eq (BitVec.ofNat 32 (i 1).val) 0#32)) 0#32) = 1#1
/-- It holds at the points ≡ 0 (mod 8). -/
theorem condFirst_iff : ∀ t : Fin cfg0.N, condFirst (grid0.coords t) ↔ t.val % 8 = 0 :=
  (by decide +kernel : ∀ t : Fin grid0.N, condFirst (grid0.coords t) ↔ t.val % 8 = 0)

/-- The second conditional's test: the column-tile coordinate is 7 (the accumulator is copied out there). -/
abbrev condLast (i : grid0.Coords) : Prop := k0_cond2 i = 1#1
/-- It holds at the points ≡ 7 (mod 8). -/
theorem condLast_iff : ∀ t : Fin cfg0.N, condLast (grid0.coords t) ↔ t.val % 8 = 7 :=
  (by decide +kernel : ∀ t : Fin grid0.N, condLast (grid0.coords t) ↔ t.val % 8 = 7)

set_option maxHeartbeats 1000000 in
/-- The body at a point of the first column tile (reset, accumulate, no copy-out): on whole memrefs — the three input
    blocks at their contents, the output's buffer handed back untouched, the accumulator at anything — it runs to the
    continuation with the inputs as they were and the accumulator rewritten; the pieces written are the witness. -/
noncomputable def runFirst (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole) (hc0 : condFirst i) (hc1 : ¬condLast i)
    (x0 : Vec F S1024x256 .bf16) (x1 : Vec F S8192x256 .bf16) (x2 : Vec F S1024x1024 .f32) :
    { LS : List (View.Piece (Elt F) S8x128 .f32) //
      ∀ (xi : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__sim_mse_kernel i arg2 harg2 arg3 harg3 arg4 harg4 arg5 harg5 arg6 harg6) K } := by
  refine ⟨?_, fun xi E K => ?run⟩
  case run =>
    simp only [cc0__sim_mse_kernel_eq_skeleton]; unfold cc0__sim_mse_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- The body at a point of a middle column tile (accumulate only): the accumulator is found at what the point before
    left and is rewritten; the output's buffer is handed back untouched. -/
noncomputable def runMid (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole) (hc0 : ¬condFirst i) (hc1 : ¬condLast i)
    (x0 : Vec F S1024x256 .bf16) (x1 : Vec F S8192x256 .bf16) (x2 : Vec F S1024x1024 .f32) (xs : Vec F S8x128 .f32) :
    { LS : List (View.Piece (Elt F) S8x128 .f32) //
      ∀ (xi : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__sim_mse_kernel i arg2 harg2 arg3 harg3 arg4 harg4 arg5 harg5 arg6 harg6) K } := by
  refine ⟨?_, fun xi E K => ?run⟩
  case run =>
    simp only [cc0__sim_mse_kernel_eq_skeleton]; unfold cc0__sim_mse_kernel_skel
    unfold owns
    iintro ⟨⟨%f0, %hf0, H0⟩, ⟨%f1, %hf1, H1⟩, ⟨%f2, %hf2, H2⟩, ⟨%f3, %hf3, H3⟩, ⟨%fs, %hfs, HS0⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- The body at a point of the last column tile (accumulate, then copy the accumulator out): the accumulator is found
    at what the point before left and is rewritten; the output's buffer, found at anything, is written whole. -/
noncomputable def runLast (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole) (hc0 : ¬condFirst i) (hc1 : condLast i)
    (x0 : Vec F S1024x256 .bf16) (x1 : Vec F S8192x256 .bf16) (x2 : Vec F S1024x1024 .f32) (xs : Vec F S8x128 .f32) :
    Σ' (LO : List (View.Piece (Elt F) S8x128 .f32)), { LS : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc0__sim_mse_kernel i arg2 harg2 arg3 harg3 arg4 harg4 arg5 harg5 arg6 harg6) K } := by
  refine ⟨?_, ?_, fun E K => ?run⟩
  case run =>
    simp only [cc0__sim_mse_kernel_eq_skeleton]; unfold cc0__sim_mse_kernel_skel
    unfold owns
    iintro ⟨⟨%f0, %hf0, H0⟩, ⟨%f1, %hf1, H1⟩, ⟨%f2, %hf2, H2⟩, ⟨%d3, %f3, -, H3⟩, ⟨%fs, %hfs, HS0⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS0

end Cert.KernelIdeal.Hand

end
-- ==== Proof.KICases.lean ====
/-
  What the accumulator and the output block hold after each grid point, and the body's obligation to the pipeline.

  The grid is 8 × 8, walked row of tiles by row of tiles: point t is tile (t / 8, t % 8). The accumulator is a
  scratch block carried from point to point: reset and added to at the first tile of a row, added to at the others,
  copied into the output block at the last. The output block is written back to the result array only there.
-/
import proofs.«162464_j90563680404074_2_alg».proof.Proof.KIRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- The host operations before the region, stretch by stretch. -/
abbrev preOps : List (List (HloOp τ sig (Elt F))) :=
  [hostOps0, hostOps0_1, hostOps0_2, hostOps0_3, hostOps0_4, hostOps0_5, hostOps0_6, hostOps0_7, hostOps0_8]

/-- Core `c`'s buffer contents when the region is entered: after the host operations before it. -/
abbrev V0 (c : Dev nD) : Valuation τ sig (Elt F) := StableHlo.after (List.flatten preOps) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## Idle and live points of the windows -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
/-- Where the body does not copy the accumulator out, the output block is idle -/
theorem idleAt3 : ∀ t : Fin cfg0.N, ¬condLast (grid0.coords t) → cfg0.idle 3 (grid0.coords t) = true := by decide +kernel
/-- and is not written back; -/
theorem noFlush3 : ∀ t : Fin cfg0.N, ¬condLast (grid0.coords t) → (cfg0.win 3).flush t = false := by decide +kernel
/-- where it does, the block is live. -/
theorem liveAt3 : ∀ t : Fin cfg0.N, condLast (grid0.coords t) → cfg0.idle 3 (grid0.coords t) = false := by decide +kernel

/-! ## The memrefs the pipeline calls the body with -/

abbrev VO : View sig .tc .vmem S8x128 .f32 := (Memref.whole cc0_stg3_0 : Memref sig .tc .vmem S8x128 .f32).view
abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x128 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM : Memref sig .tc .vmem S8x128 .f32 := Memref.whole cc0_scratch0
abbrev VS : View sig .tc .vmem S8x128 .f32 := scM.view

/-- The invariant the launch hands the region: the accumulator at anything, the generator register at some state. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What each case leaves -/

theorem coverFirst (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole) (hc0 : condFirst i) (hc1 : ¬condLast i) (x0 : Vec F S1024x256 .bf16) (x1 : Vec F S8192x256 .bf16) (x2 : Vec F S1024x1024 .f32) (y : S8x128.Idx) :
    ∃ pc ∈ (runFirst (F := F) c i arg2 harg2 arg3 harg3 arg4 harg4 arg5 harg5 arg6 harg6 hc0 hc1 x0 x1 x2).1, y ∈ pc.1.set :=
  View.cover_of_tiledL (runFirst (F := F) c i arg2 harg2 arg3 harg3 arg4 harg4 arg5 harg5 arg6 harg6 hc0 hc1 x0 x1 x2).1 S8x128.size (by sl_kernel_rfl) y

/-- What the first-tile case leaves in the accumulator. -/
def accFirst (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole) (hc0 : condFirst i) (hc1 : ¬condLast i) (x0 : Vec F S1024x256 .bf16) (x1 : Vec F S8192x256 .bf16) (x2 : Vec F S1024x1024 .f32) : Vec F S8x128 .f32 :=
  VS.read (Elt F) (VS.writes (Elt F) VS.junk (runFirst (F := F) c i arg2 harg2 arg3 harg3 arg4 harg4 arg5 harg5 arg6 harg6 hc0 hc1 x0 x1 x2).1)

theorem coverMid (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole) (hc0 : ¬condFirst i) (hc1 : ¬condLast i) (x0 : Vec F S1024x256 .bf16) (x1 : Vec F S8192x256 .bf16) (x2 : Vec F S1024x1024 .f32) (xs : Vec F S8x128 .f32) (y : S8x128.Idx) :
    ∃ pc ∈ (runMid (F := F) c i arg2 harg2 arg3 harg3 arg4 harg4 arg5 harg5 arg6 harg6 hc0 hc1 x0 x1 x2 xs).1, y ∈ pc.1.set :=
  View.cover_of_tiledL (runMid (F := F) c i arg2 harg2 arg3 harg3 arg4 harg4 arg5 harg5 arg6 harg6 hc0 hc1 x0 x1 x2 xs).1 S8x128.size (by sl_kernel_rfl) y

/-- What a middle-tile case leaves in the accumulator. -/
def accMid (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole) (hc0 : ¬condFirst i) (hc1 : ¬condLast i) (x0 : Vec F S1024x256 .bf16) (x1 : Vec F S8192x256 .bf16) (x2 : Vec F S1024x1024 .f32) (xs : Vec F S8x128 .f32) : Vec F S8x128 .f32 :=
  VS.read (Elt F) (VS.writes (Elt F) VS.junk (runMid (F := F) c i arg2 harg2 arg3 harg3 arg4 harg4 arg5 harg5 arg6 harg6 hc0 hc1 x0 x1 x2 xs).1)

theorem coverLastOut (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole) (hc0 : ¬condFirst i) (hc1 : condLast i) (x0 : Vec F S1024x256 .bf16) (x1 : Vec F S8192x256 .bf16) (x2 : Vec F S1024x1024 .f32) (xs : Vec F S8x128 .f32) (y : S8x128.Idx) :
    ∃ pc ∈ (runLast (F := F) c i arg2 harg2 arg3 harg3 arg4 harg4 arg5 harg5 arg6 harg6 hc0 hc1 x0 x1 x2 xs).1, y ∈ pc.1.set :=
  View.cover_of_tiledL (runLast (F := F) c i arg2 harg2 arg3 harg3 arg4 harg4 arg5 harg5 arg6 harg6 hc0 hc1 x0 x1 x2 xs).1 S8x128.size (by sl_kernel_rfl) y

/-- What the last-tile case leaves in the output block. -/
def outLast (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole) (hc0 : ¬condFirst i) (hc1 : condLast i) (x0 : Vec F S1024x256 .bf16) (x1 : Vec F S8192x256 .bf16) (x2 : Vec F S1024x1024 .f32) (xs : Vec F S8x128 .f32) : Vec F S8x128 .f32 :=
  VO.read (Elt F) (VO.writes (Elt F) VO.junk (runLast (F := F) c i arg2 harg2 arg3 harg3 arg4 harg4 arg5 harg5 arg6 harg6 hc0 hc1 x0 x1 x2 xs).1)

theorem coverLastAcc (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole) (hc0 : ¬condFirst i) (hc1 : condLast i) (x0 : Vec F S1024x256 .bf16) (x1 : Vec F S8192x256 .bf16) (x2 : Vec F S1024x1024 .f32) (xs : Vec F S8x128 .f32) (y : S8x128.Idx) :
    ∃ pc ∈ (runLast (F := F) c i arg2 harg2 arg3 harg3 arg4 harg4 arg5 harg5 arg6 harg6 hc0 hc1 x0 x1 x2 xs).2.1, y ∈ pc.1.set :=
  View.cover_of_tiledL (runLast (F := F) c i arg2 harg2 arg3 harg3 arg4 harg4 arg5 harg5 arg6 harg6 hc0 hc1 x0 x1 x2 xs).2.1 S8x128.size (by sl_kernel_rfl) y

/-- What the last-tile case leaves in the accumulator. -/
def accLast (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole) (hc0 : ¬condFirst i) (hc1 : condLast i) (x0 : Vec F S1024x256 .bf16) (x1 : Vec F S8192x256 .bf16) (x2 : Vec F S1024x1024 .f32) (xs : Vec F S8x128 .f32) : Vec F S8x128 .f32 :=
  VS.read (Elt F) (VS.writes (Elt F) VS.junk (runLast (F := F) c i arg2 harg2 arg3 harg3 arg4 harg4 arg5 harg5 arg6 harg6 hc0 hc1 x0 x1 x2 xs).2.1)

end Cert.KernelIdeal.Hand

end
-- ==== Proof.KIBody.lean ====
/-
  The accumulation over the grid, the pipeline's proof data, and the body's obligation at every point.
-/
import proofs.«162464_j90563680404074_2_alg».proof.Proof.KICases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output block and the accumulator hold after each point -/

/-- THE ACCUMULATION: the pair (output block, accumulator) after the body at position `n`. At a point ≡ 0 (mod 8)
    the accumulator restarts from the reset value; elsewhere it continues from what the point before left; at a
    point ≡ 7 (mod 8) the output block receives it. Where the output block is idle its component is the
    accumulator's (nothing consults it there). -/
def accAt (c : Dev nD) : (n : ℕ) → n < cfg0.N → Vec F S8x128 .f32 × Vec F S8x128 .f32
  | 0, hn => (accFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM (Memref.isWhole_whole _) ((condFirst_iff ⟨0, hn⟩).mpr (Nat.zero_mod _)) (fun h => (fun h => by (try dsimp only at h); omega) ((condLast_iff ⟨0, hn⟩).mp h)) (iblk m c 0 ⟨0, hn⟩) (iblk m c 1 ⟨0, hn⟩) (iblk m c 2 ⟨0, hn⟩), accFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM (Memref.isWhole_whole _) ((condFirst_iff ⟨0, hn⟩).mpr (Nat.zero_mod _)) (fun h => (fun h => by (try dsimp only at h); omega) ((condLast_iff ⟨0, hn⟩).mp h)) (iblk m c 0 ⟨0, hn⟩) (iblk m c 1 ⟨0, hn⟩) (iblk m c 2 ⟨0, hn⟩))
  | n + 1, hn =>
    if h0 : (n + 1) % 8 = 0 then
      if h1 : (n + 1) % 8 = 7 then
        False.elim (by omega)
      else
        (accFirst c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM (Memref.isWhole_whole _) ((condFirst_iff ⟨n + 1, hn⟩).mpr h0) (fun h => h1 ((condLast_iff ⟨n + 1, hn⟩).mp h)) (iblk m c 0 ⟨n + 1, hn⟩) (iblk m c 1 ⟨n + 1, hn⟩) (iblk m c 2 ⟨n + 1, hn⟩), accFirst c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM (Memref.isWhole_whole _) ((condFirst_iff ⟨n + 1, hn⟩).mpr h0) (fun h => h1 ((condLast_iff ⟨n + 1, hn⟩).mp h)) (iblk m c 0 ⟨n + 1, hn⟩) (iblk m c 1 ⟨n + 1, hn⟩) (iblk m c 2 ⟨n + 1, hn⟩))
    else
      if h1 : (n + 1) % 8 = 7 then
        (outLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM (Memref.isWhole_whole _) (fun h => h0 ((condFirst_iff ⟨n + 1, hn⟩).mp h)) ((condLast_iff ⟨n + 1, hn⟩).mpr h1) (iblk m c 0 ⟨n + 1, hn⟩) (iblk m c 1 ⟨n + 1, hn⟩) (iblk m c 2 ⟨n + 1, hn⟩) (accAt c n (Nat.lt_of_succ_lt hn)).2, accLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM (Memref.isWhole_whole _) (fun h => h0 ((condFirst_iff ⟨n + 1, hn⟩).mp h)) ((condLast_iff ⟨n + 1, hn⟩).mpr h1) (iblk m c 0 ⟨n + 1, hn⟩) (iblk m c 1 ⟨n + 1, hn⟩) (iblk m c 2 ⟨n + 1, hn⟩) (accAt c n (Nat.lt_of_succ_lt hn)).2)
      else
        (accMid c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM (Memref.isWhole_whole _) (fun h => h0 ((condFirst_iff ⟨n + 1, hn⟩).mp h)) (fun h => h1 ((condLast_iff ⟨n + 1, hn⟩).mp h)) (iblk m c 0 ⟨n + 1, hn⟩) (iblk m c 1 ⟨n + 1, hn⟩) (iblk m c 2 ⟨n + 1, hn⟩) (accAt c n (Nat.lt_of_succ_lt hn)).2, accMid c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM (Memref.isWhole_whole _) (fun h => h0 ((condFirst_iff ⟨n + 1, hn⟩).mp h)) (fun h => h1 ((condLast_iff ⟨n + 1, hn⟩).mp h)) (iblk m c 0 ⟨n + 1, hn⟩) (iblk m c 1 ⟨n + 1, hn⟩) (iblk m c 2 ⟨n + 1, hn⟩) (accAt c n (Nat.lt_of_succ_lt hn)).2)

/-- `accAt` at a first-tile point. -/
theorem accAt_first (c : Dev nD) (t : Fin cfg0.N) (h0 : t.val % 8 = 0) (h1 : ¬t.val % 8 = 7) :
    accAt m c t.val t.isLt = (accFirst c (grid0.coords t) (ms0_0 t) (hs0_0 t) (ms0_1 t) (hs0_1 t) (ms0_2 t) (hs0_2 t) (ms0_3 t) (hs0_3 t) scM (Memref.isWhole_whole _) ((condFirst_iff t).mpr h0) (fun h => h1 ((condLast_iff t).mp h)) (iblk m c 0 t) (iblk m c 1 t) (iblk m c 2 t), accFirst c (grid0.coords t) (ms0_0 t) (hs0_0 t) (ms0_1 t) (hs0_1 t) (ms0_2 t) (hs0_2 t) (ms0_3 t) (hs0_3 t) scM (Memref.isWhole_whole _) ((condFirst_iff t).mpr h0) (fun h => h1 ((condLast_iff t).mp h)) (iblk m c 0 t) (iblk m c 1 t) (iblk m c 2 t)) := by
  obtain ⟨n, hn⟩ := t
  cases n with
  | zero => exact rfl
  | succ n => exact (dif_pos h0).trans ((dif_neg h1).trans rfl)

/-- `accAt` at a middle-tile point: over what the point before left. -/
theorem accAt_mid (c : Dev nD) (t : Fin cfg0.N) (h0 : ¬t.val % 8 = 0) (h1 : ¬t.val % 8 = 7) :
    accAt m c t.val t.isLt = (accMid c (grid0.coords t) (ms0_0 t) (hs0_0 t) (ms0_1 t) (hs0_1 t) (ms0_2 t) (hs0_2 t) (ms0_3 t) (hs0_3 t) scM (Memref.isWhole_whole _) (fun h => h0 ((condFirst_iff t).mp h)) (fun h => h1 ((condLast_iff t).mp h)) (iblk m c 0 t) (iblk m c 1 t) (iblk m c 2 t) (accAt m c (t.val - 1) (Nat.lt_of_le_of_lt (Nat.sub_le _ _) t.isLt)).2, accMid c (grid0.coords t) (ms0_0 t) (hs0_0 t) (ms0_1 t) (hs0_1 t) (ms0_2 t) (hs0_2 t) (ms0_3 t) (hs0_3 t) scM (Memref.isWhole_whole _) (fun h => h0 ((condFirst_iff t).mp h)) (fun h => h1 ((condLast_iff t).mp h)) (iblk m c 0 t) (iblk m c 1 t) (iblk m c 2 t) (accAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `accAt` at a last-tile point: over what the point before left. -/
theorem accAt_last (c : Dev nD) (t : Fin cfg0.N) (h0 : ¬t.val % 8 = 0) (h1 : t.val % 8 = 7) :
    accAt m c t.val t.isLt = (outLast c (grid0.coords t) (ms0_0 t) (hs0_0 t) (ms0_1 t) (hs0_1 t) (ms0_2 t) (hs0_2 t) (ms0_3 t) (hs0_3 t) scM (Memref.isWhole_whole _) (fun h => h0 ((condFirst_iff t).mp h)) ((condLast_iff t).mpr h1) (iblk m c 0 t) (iblk m c 1 t) (iblk m c 2 t) (accAt m c (t.val - 1) (Nat.lt_of_le_of_lt (Nat.sub_le _ _) t.isLt)).2, accLast c (grid0.coords t) (ms0_0 t) (hs0_0 t) (ms0_1 t) (hs0_1 t) (ms0_2 t) (hs0_2 t) (ms0_3 t) (hs0_3 t) scM (Memref.isWhole_whole _) (fun h => h0 ((condFirst_iff t).mp h)) ((condLast_iff t).mpr h1) (iblk m c 0 t) (iblk m c 1 t) (iblk m c 2 t) (accAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the accumulator at anything; afterwards at what
    the point before left in it; the generator register at some state throughout. -/
def PhiS (c : Dev nD) : (n : ℕ) → n ≤ cfg0.N → sProp 𝕄
  | 0, _ => Pipeline.ΦA spec0 c
  | n + 1, hn => iprop(iprop(owns (c : Thread nD τ) scM fullShare ((accAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((accAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((accAt m c (n - 1) (by omega)).2)) ∗ (∃ r, prngReg c r)) := by
  cases n with
  | zero => exact absurd rfl hz
  | succ n => rfl

/-! ## The pipeline's proof data -/

/-- The proof data on core `c`: the arrays as the region finds them; after the body each input's buffer at its block
    and the output's at `accAt`'s first component; the invariant `PhiS`; nothing owed. The two windows that read the
    normalised rows hold that one array at complementary half shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (accAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (accAt m c t.val t.isLt).1 := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' memrefs hold their blocks; the closed forms of the two conditions say which
    case the point is in; the invariant hands the body the accumulator at what the point before left (at anything at
    the very first point) and takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0 t], after0]
  rw [show (dats m 0 c).leavesExact 1 t = owns (c : Thread nD τ) (ms0_1 t) fullShare ((dats m 0 c).after 1 t) from by
    unfold Dat.leavesExact; rw [liveAt1 t], after1]
  rw [show (dats m 0 c).leavesExact 2 t = owns (c : Thread nD τ) (ms0_2 t) fullShare ((dats m 0 c).after 2 t) from by
    unfold Dat.leavesExact; rw [liveAt2 t], after2]
  by_cases h0 : t.val % 8 = 0
  · have h1 : ¬t.val % 8 = 7 := by omega
    rw [Dat.leavesExact_idle (dats m 0 c) 3 t (idleAt3 t (fun h => h1 ((condLast_iff t).mp h))) (noFlush3 t (fun h => h1 ((condLast_iff t).mp h)))]
    rw [accAt_first m c t h0 h1]
    unfold accFirst; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩⟩
      iapply ((runFirst c (grid0.coords t) _ _ _ _ _ _ _ _ _ _ ((condFirst_iff t).mpr h0) (fun h => h1 ((condLast_iff t).mp h)) (iblk m c 0 t) (iblk m c 1 t) (iblk m c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (coverFirst c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS0, Hg⟩, Ho, ⟨%d0, H0⟩, ⟨%d1, H1⟩, ⟨%d2, H2⟩, ⟨%d3, H3⟩⟩
      iapply ((runFirst c (grid0.coords t) _ _ _ _ _ _ _ _ _ _ ((condFirst_iff t).mpr h0) (fun h => h1 ((condLast_iff t).mp h)) (iblk m c 0 t) (iblk m c 1 t) (iblk m c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (coverFirst c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dats m 0 c).leavesExact 3 t = owns (c : Thread nD τ) (ms0_3 t) fullShare ((dats m 0 c).after 3 t) from by
        unfold Dat.leavesExact; rw [liveAt3 t ((condLast_iff t).mpr h1)], after3]
      rw [accAt_last m c t h0 h1]
      unfold outLast accLast; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((runLast c (grid0.coords t) _ _ _ _ _ _ _ _ _ _ (fun h => h0 ((condFirst_iff t).mp h)) ((condLast_iff t).mpr h1) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (coverLastAcc c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLastOut c _ _ _ _ _ _ _ _ _ _ _ _ _ _ _ _ _)
    · rw [Dat.leavesExact_idle (dats m 0 c) 3 t (idleAt3 t (fun h => h1 ((condLast_iff t).mp h))) (noFlush3 t (fun h => h1 ((condLast_iff t).mp h)))]
      rw [accAt_mid m c t h0 h1]
      unfold accMid; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((runMid c (grid0.coords t) _ _ _ _ _ _ _ _ _ _ (fun h => h0 ((condFirst_iff t).mp h)) (fun h => h1 ((condLast_iff t).mp h)) (iblk m c 0 t) (iblk m c 1 t) (iblk m c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (coverMid c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

end Cert.KernelIdeal.Hand

end
-- ==== Proof.KIFrame.lean ====
/-
  The run of @main: the host operations before the region, the region, the host operations after it.

  Two of the kernel's four windows read ONE array (the normalised rows): the region holds that array at two
  complementary half shares, one per window, dealt at entry and rejoined at exit. For the host operations after the
  region the arrays are regarded through three windows on three distinct arrays (the normalised rows, the targets, the
  result).
-/
import proofs.«162464_j90563680404074_2_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem preOps_sub : (preOps (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub⟩

theorem preOps_fresh : (preOps (F := F)).Forall fun ops => ops.Forall fun op => op.fresh = ∅ := by
  simp only [List.Forall]; repeat' constructor

theorem hostOps1_fresh : (hostOps1 : List (HloOp τ sig (Elt F))).Forall fun op => op.fresh = ∅ := by
  simp only [List.Forall]; repeat' constructor

/-- @main reduces to the region continued by the later host operations, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1] preOps_sub preOps_fresh main_chain

/-! ## Three windows on three distinct arrays -/

/-- The windows on the normalised rows (one of the two), the targets and the result. -/
abbrev winD : Fin 3 → Pipeline.WinSpec sig grid0.rank := fun | 0 => spec0 0 | 1 => spec0 2 | 2 => spec0 3 | ⟨_ + 3, h⟩ => absurd h (Nat.not_lt.2 (Nat.le_add_left _ _))

theorem winD_inj : Function.Injective (Pipeline.arrRef winD) := by decide
theorem winD_unscoped : ∀ w, (Pipeline.arrRef winD w).isScoped = false := by decide
theorem winD_image : Finset.univ.image (Pipeline.arrRef winD) = Finset.univ.image (Pipeline.arrRef spec0) := by decide

theorem bigSep_W3 {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

/-- The arrays' contents when the region is left: the two inputs as found, the result as the write-backs leave it. -/
def AD (c : Dev nD) : (w : Fin 3) → Buf (Elt F) ((winD w).arr.view.loc (c : Thread nD τ))
  | ⟨0, _⟩ => V m c main_v19
  | ⟨1, _⟩ => V m c main_arg3
  | ⟨2, _⟩ => (dats m 0 c).arrAt 3 cfg0.N

/-- Core `c`'s buffer contents after the host operations that follow the region. -/
def AT (c : Dev nD) (b : Ref sig .tc) : Buf (Elt F) ((c : Thread nD τ).loc b) :=
  StableHlo.after (List.flatten [hostOps1]) (Pipeline.withArrays winD c (V0 m c) (AD m c)) (Proc.devRef .tc b)

theorem sfx_sub : ∀ ops ∈ ([hostOps1] : List (List (HloOp τ sig (Elt F)))), ∀ op ∈ ops,
    op.bufs ⊆ Pipeline.tailRefs sig Pipeline.Prefetch.none winD := by
  rw [Pipeline.tailRefs_none winD winD_unscoped]
  intro ops hops op hop
  simp only [List.mem_cons, List.mem_nil_iff, or_false] at hops
  rcases hops with rfl
  · exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

theorem sfx_keeps : ∀ ops ∈ ([hostOps1] : List (List (HloOp τ sig (Elt F)))), ∀ op ∈ ops,
    ∀ w, Proc.devRef .tc (Pipeline.arrRef winD w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl
    all_goals intro w; fin_cases w <;> simp only [StableHlo.nullary_writes, StableHlo.unary_writes, StableHlo.binary_writes, StableHlo.reshape_writes, Finset.mem_singleton] <;> exact StableHlo.devRef_ne_of_ne (by decide)

/-! ## The one array behind two windows: dealt at entry, rejoined at exit -/

/-- The shares the region holds its arrays at: the two windows on the normalised rows a half each. -/
theorem share0 (c : Dev nD) : (dats m 0 c).share (0 : Fin 4) = fullShare.left := by
  unfold Dat.share; rw [show (cfg0.win 0).isOut = false from rfl, if_neg Bool.false_ne_true]; dsimp only [dats]
theorem share1 (c : Dev nD) : (dats m 0 c).share (1 : Fin 4) = fullShare.right := by
  unfold Dat.share; rw [show (cfg0.win 1).isOut = false from rfl, if_neg Bool.false_ne_true]; dsimp only [dats]
theorem share2 (c : Dev nD) : (dats m 0 c).share (2 : Fin 4) = fullShare := by
  unfold Dat.share; rw [show (cfg0.win 2).isOut = false from rfl, if_neg Bool.false_ne_true]; dsimp only [dats]
theorem share3 (c : Dev nD) : (dats m 0 c).share (3 : Fin 4) = fullShare := by
  unfold Dat.share; rw [show (cfg0.win 3).isOut = true from rfl, if_pos rfl]

set_option maxHeartbeats 4000000 in
/-- The region's arrays at contents that agree on the shared array ARE the three distinct arrays held whole:
    the shared one's two half shares make its full share. -/
theorem arrays_iff (c : Dev nD) (Fa : (w : Fin cfg0.W) → Buf (Elt F) ((cfg0.win w).arr.view.loc (c : Thread nD τ)))
    (Ga : (w : Fin 3) → Buf (Elt F) ((winD w).arr.view.loc (c : Thread nD τ)))
    (h0 : Fa 0 = Ga 0) (h1 : Fa 1 = Ga 0) (h2 : Fa 2 = Ga 1) (h3 : Fa 3 = Ga 2) :
    ((dats m 0 c).arrays Fa : sProp 𝕄) ⊣⊢ Pipeline.arrPts winD c Ga := by
  unfold Dat.arrays Pipeline.arrPts
  rw [bigSep_W0, bigSep_W3]
  rw [(arr_whole0 0).set_eq_univ, (arr_whole0 2).set_eq_univ, (arr_whole0 3).set_eq_univ, h0, h1, h2, h3]
  simp only [share0, share1, share2, share3]
  have hs : (((c : Thread nD τ).loc main_v19) ↦[Finset.univ]{fullShare} Ga 0 : sProp 𝕄) ⊣⊢ iprop((((c : Thread nD τ).loc main_v19) ↦[Finset.univ]{fullShare.left} Ga 0) ∗ ((c : Thread nD τ).loc main_v19) ↦[Finset.univ]{fullShare.right} Ga 0) :=
    pointsTo_share (PosShare.mem_left_op_right fullShare)
  constructor
  · iintro ⟨Ha, Hb, Hc, Hd⟩
    isplitl [Ha Hb]
    · iapply hs.2; isplitl [Ha]; · iexact Ha
      iexact Hb
    isplitl [Hc]; · iexact Hc
    iexact Hd
  · iintro ⟨Hab, Hc, Hd⟩
    ihave H := hs.1 $$ Hab
    icases H with ⟨Ha, Hb⟩
    isplitl [Ha]; · iexact Ha
    isplitl [Hb]; · iexact Hb
    isplitl [Hc]; · iexact Hc
    iexact Hd

/-! ## The run -/

theorem restP_eq (c : Dev nD) (X : (b : Ref sig .tc) → Buf (Elt F) ((c : Thread nD τ).loc b)) :
    (Pipeline.unscopedRestP (Ix := Unit) (Name := ℕ) (U := UR sig nD τ) (Lvl := ℕ) Pipeline.Prefetch.none spec0 c X : sProp 𝕄)
      = Pipeline.unscopedRestP Pipeline.Prefetch.none winD c X := by
  unfold Pipeline.unscopedRestP; rw [winD_image]

/-- The distinct buffers behind the region's arrays are the three windows' arrays. -/
theorem arrBufs_eq (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = Pipeline.arrPts winD c (fun w => X (Pipeline.arrRef winD w)) := by
  unfold Pipeline.arrBufs Pipeline.arrPts
  rw [← winD_image, show Finset.image (Pipeline.arrRef winD) Finset.univ = Finset.univ.map ⟨Pipeline.arrRef winD, winD_inj⟩ from (Finset.map_eq_image (⟨Pipeline.arrRef winD, winD_inj⟩ : Fin 3 ↪ Ref sig .tc) Finset.univ).symm, bigSep_map]
  rfl

/-- At entry the shared array is dealt to its two windows. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  rw [arrBufs_eq]
  exact (arrays_iff m c _ _ rfl rfl rfl rfl).2

/-- The arrays when the region is left, window by window. -/
theorem exit0 (c : Dev nD) : (dats m 0 c).arrAt 0 cfg0.N = AD m c 0 := ((dats m 0 c).arrAt_in 0 rfl _).trans rfl
theorem exit1 (c : Dev nD) : (dats m 0 c).arrAt 1 cfg0.N = AD m c 0 := ((dats m 0 c).arrAt_in 1 rfl _).trans rfl
theorem exit2 (c : Dev nD) : (dats m 0 c).arrAt 2 cfg0.N = AD m c 1 := ((dats m 0 c).arrAt_in 2 rfl _).trans rfl

-- the launch theorem's implicit arguments are found by unifying its conclusion with this one, which takes unfolding
-- plain definitions in a metavariable's type
set_option backward.isDefEq.respectTransparency.types false in
/-- From any memory with zero counters every weakly fair execution of @main on the TensorCore terminates, and every
    final state has each of the region's arrays at what the write-backs leave and every other unscoped buffer at
    what the host operations after the region leave. -/
theorem run_main : θ_run defs (onTc (τ := τ) (main (F := F))) (s₀ m ρ)
    (fun r => ∀ c : Dev nD, (∀ w : Fin cfg0.W, r.2.mem ((spec0 w).arr.view.loc (c : Thread nD τ)) = (dats m 0 c).arrAt w cfg0.N)
      ∧ ∀ b ∈ Pipeline.restRefsP sig Pipeline.Prefetch.none winD, r.2.mem ((c : Thread nD τ).loc b) = AT m c b) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none winD c (V m c))
    (Z' := fun c => Pipeline.unscopedRestP (Ix := Unit) (Name := ℕ) (U := UR sig nD τ) (Lvl := ℕ) Pipeline.Prefetch.none winD c (AT m c))
    (hX := fun c => by
      iintro ⟨HU, -, -, -, Hp, -⟩; imodintro
      isplitl [Hp]; · iexists _; iexact Hp
      iapply (Entails.of_eq (restP_eq c (V m c))); iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => by
      have hiff := arrays_iff m c (fun w => (dats m 0 c).arrAt w cfg0.N) (AD m c) (exit0 m c) (exit1 m c) (exit2 m c) rfl
      have h := Pipeline.tail_seqs (fun q => (cfgs q).toPCfg (Val := Elt F)) defs₀ Variants.none Pipeline.Prefetch.none winD winD_inj c (V0 m c) (AD m c)
        [hostOps1] sfx_sub sfx_fresh sfx_keeps Q'
      iintro ⟨Hk, Hb, Ha, HZ⟩
      iapply h
      isplitl [Hk]
      · iintro ⟨Ha, HZ'⟩; iapply Hk
        isplitl [Ha]; · iapply hiff.2; iexact Ha
        iexact HZ'
      isplitl [Hb]; · iexact Hb
      isplitl [Ha]; · iapply hiff.1; iexact Ha
      iexact HZ)
    (QY := fun c s => ∀ b ∈ Pipeline.restRefsP sig Pipeline.Prefetch.none winD, s.mem ((c : Thread nD τ).loc b) = AT m c b)
    (hY := fun c s' => by
      iintro ⟨-, HU, HSI⟩
      unfold Pipeline.unscopedRestP
      imodintro
      iapply (pointsTo_read_all (Pipeline.restRefsP sig Pipeline.Prefetch.none winD) (fun b => (c : Thread nD τ).loc b) (AT m c) s')
      isplitl [HU] <;> iassumption)
    (hQ := fun s h c => ⟨(h c).1, (h c).2.2⟩)

end Cert.KernelIdeal.Hand

end
-- ==== Proof.KITail.lean ====
/-
  The argument arrays are untouched: no host operation writes them and the region only reads them.
-/
import proofs.«162464_j90563680404074_2_alg».proof.Proof.KIFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- The region finds each argument array as launched. -/
theorem V_arg0 (c : Dev nD) : V m c main_arg0 = m ((c : Thread nD τ).loc main_arg0) := by
  dsimp only [V, V0]
  simp only [preOps, hostOps0, hostOps0_1, hostOps0_2, hostOps0_3, hostOps0_4, hostOps0_5, hostOps0_6, hostOps0_7, hostOps0_8, List.flatten_cons, List.flatten_nil, List.append_nil, List.cons_append, List.nil_append]
  after_results
theorem V_arg1 (c : Dev nD) : V m c main_arg1 = m ((c : Thread nD τ).loc main_arg1) := by
  dsimp only [V, V0]
  simp only [preOps, hostOps0, hostOps0_1, hostOps0_2, hostOps0_3, hostOps0_4, hostOps0_5, hostOps0_6, hostOps0_7, hostOps0_8, List.flatten_cons, List.flatten_nil, List.append_nil, List.cons_append, List.nil_append]
  after_results
theorem V_arg2 (c : Dev nD) : V m c main_arg2 = m ((c : Thread nD τ).loc main_arg2) := by
  dsimp only [V, V0]
  simp only [preOps, hostOps0, hostOps0_1, hostOps0_2, hostOps0_3, hostOps0_4, hostOps0_5, hostOps0_6, hostOps0_7, hostOps0_8, List.flatten_cons, List.flatten_nil, List.append_nil, List.cons_append, List.nil_append]
  after_results
theorem V_arg3 (c : Dev nD) : V m c main_arg3 = m ((c : Thread nD τ).loc main_arg3) := by
  dsimp only [V, V0]
  simp only [preOps, hostOps0, hostOps0_1, hostOps0_2, hostOps0_3, hostOps0_4, hostOps0_5, hostOps0_6, hostOps0_7, hostOps0_8, List.flatten_cons, List.flatten_nil, List.append_nil, List.cons_append, List.nil_append]
  after_results

/-- The host operations after the region leave them so. -/
theorem AT_arg0 (c : Dev nD) : AT m c main_arg0 = m ((c : Thread nD τ).loc main_arg0) := by
  unfold AT
  simp only [hostOps1, List.flatten_cons, List.flatten_nil, List.append_nil]
  after_results
  rw [Pipeline.withArrays_of_ne winD c (V0 m c) (AD m c) main_arg0 (by decide)]
  exact V_arg0 m c
theorem AT_arg1 (c : Dev nD) : AT m c main_arg1 = m ((c : Thread nD τ).loc main_arg1) := by
  unfold AT
  simp only [hostOps1, List.flatten_cons, List.flatten_nil, List.append_nil]
  after_results
  rw [Pipeline.withArrays_of_ne winD c (V0 m c) (AD m c) main_arg1 (by decide)]
  exact V_arg1 m c
theorem AT_arg2 (c : Dev nD) : AT m c main_arg2 = m ((c : Thread nD τ).loc main_arg2) := by
  unfold AT
  simp only [hostOps1, List.flatten_cons, List.flatten_nil, List.append_nil]
  after_results
  rw [Pipeline.withArrays_of_ne winD c (V0 m c) (AD m c) main_arg2 (by decide)]
  exact V_arg2 m c

theorem mem_rest (b : Ref sig .tc) (hs : b.isScoped = false) (ha : ∀ w, (winD w).arr.view.ref ≠ b) :
    b ∈ Pipeline.restRefsP sig Pipeline.Prefetch.none winD :=
  Finset.mem_sdiff.mpr ⟨Pipeline.mem_restRefs_of b hs ha, fun h => by
    obtain ⟨k, -, -⟩ := Finset.mem_image.mp h
    exact k.elim0⟩

/-- THE FRAME: every weakly fair execution of @main terminates, nothing faulting, with the four argument arrays as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (mem_rest main_arg0 (by decide) (by decide))).trans (AT_arg0 m c),
     ((h c).2 main_arg1 (mem_rest main_arg1 (by decide) (by decide))).trans (AT_arg1 m c),
     ((h c).2 main_arg2 (mem_rest main_arg2 (by decide) (by decide))).trans (AT_arg2 m c),
     (((h c).1 2).trans (exit2 m c)).trans (V_arg3 m c)⟩) (run_main m ρ)

end Cert.KernelIdeal.Hand

end
-- ==== Proof.KIHost.lean ====
/-
  The host operations around the region as functions of their inputs: before it, the triplet term and the normalised
  rows; after it, the result from the triplet term and the region's result array.
-/
import proofs.«162464_j90563680404074_2_alg».proof.Proof.KITail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]

/-- The anchor with each row divided by the larger of its norm and a floor. -/
def kerAhat (x0 : FVec F S8192x256 .f32) : FVec F S8192x256 .f32 :=
  Host.divf (F := F) x0 (broadcastInDim S8192x256 ![0, 1] bcast_S8192x1_S8192x256_0_1 (maximumf (Host.sqrt (F := F) (broadcastInDim S8192x1 ![0] bcast_S8192_S8192x1_0 (Host.reduceAdd (F := F) (mulf x0 x0) (constant (F := F) S_ .f32 0x00000000#32) reducesTo_S8192x256_S8192_d1 h_S_))) (broadcastInDim S8192x1 ![] bcast_S_S8192x1 (constant (F := F) S_ .f32 0x322BCC77#32))))

/-- The triplet term: the mean over the rows of relu(‖a − p + ε‖ − ‖a − n + ε‖ + margin). -/
def kerTriplet (x0 x1 x2 : FVec F S8192x256 .f32) : FVec F S_ .f32 :=
  Host.divf (F := F) (Host.reduceAdd (F := F) (maximumf (addf (subf (Host.sqrt (F := F) (Host.reduceAdd (F := F) (mulf (addf (subf x0 x1) (broadcastInDim S8192x256 ![] bcast_S_S8192x256 (constant (F := F) S_ .f32 0x358637BD#32))) (addf (subf x0 x1) (broadcastInDim S8192x256 ![] bcast_S_S8192x256 (constant (F := F) S_ .f32 0x358637BD#32)))) (constant (F := F) S_ .f32 0x00000000#32) reducesTo_S8192x256_S8192_d1 h_S_)) (Host.sqrt (F := F) (Host.reduceAdd (F := F) (mulf (addf (subf x0 x2) (broadcastInDim S8192x256 ![] bcast_S_S8192x256 (constant (F := F) S_ .f32 0x358637BD#32))) (addf (subf x0 x2) (broadcastInDim S8192x256 ![] bcast_S_S8192x256 (constant (F := F) S_ .f32 0x358637BD#32)))) (constant (F := F) S_ .f32 0x00000000#32) reducesTo_S8192x256_S8192_d1 h_S_))) (broadcastInDim S8192 ![] bcast_S_S8192 (constant (F := F) S_ .f32 0x3E4CCCCD#32))) (broadcastInDim S8192 ![] bcast_S_S8192 (constant (F := F) S_ .f32 0x00000000#32))) (constant (F := F) S_ .f32 0x00000000#32) reducesTo_S8192_S_d0 h_S_) (constant (F := F) S_ .f32 0x46000000#32)

/-- The host operations after the region: the eight per-row-tile totals picked out of the result array, summed from
    zero, divided by the number of pairs, scaled by one and added to the triplet term. -/
def tailOf (t13 : FVec F S_ .f32) (O : FVec F S64x128 .f32) : FVec F S_ .f32 :=
  addf t13 (mulf (constant (F := F) S_ .f32 0x3F800000#32)
    (Host.divf (F := F)
      (Host.reduceAdd (F := F)
        (shapeCast S8 (extractStridedSlice S8x1x1 ![0, 0, 0] (shapeCast S8x8x128 O shapeCasts_S64x128_S8x8x128) slices_S8x8x128_S8x1x1_0_0_0) shapeCasts_S8x1x1_S8)
        (constant (F := F) S_ .f32 0x00000000#32) reducesTo_S8_S_d0 h_S_)
      (constant (F := F) S_ .f32 0x4C800000#32)))

variable (m : (ℓ : Loc nD τ sig) → Buf (Elt F) ℓ)

set_option maxHeartbeats 2000000 in
/-- The triplet term the region finds. -/
theorem V_v13 (c : Dev nD) :
    V m c main_v13 = kerTriplet (m ((c : Thread nD τ).loc main_arg0)) (m ((c : Thread nD τ).loc main_arg1)) (m ((c : Thread nD τ).loc main_arg2)) := by
  dsimp only [V, V0]
  simp only [preOps, hostOps0, hostOps0_1, hostOps0_2, hostOps0_3, hostOps0_4, hostOps0_5, hostOps0_6, hostOps0_7, hostOps0_8, List.flatten_cons, List.flatten_nil, List.append_nil, List.cons_append, List.nil_append]
  after_results
  rfl

set_option maxHeartbeats 2000000 in
/-- The normalised rows the region finds (narrowed to the shorter float format). -/
theorem V_v19 (c : Dev nD) : V m c main_v19 = truncf .bf16 (kerAhat (m ((c : Thread nD τ).loc main_arg0))) bitsLt_bf16_f32 := by
  dsimp only [V, V0]
  simp only [preOps, hostOps0, hostOps0_1, hostOps0_2, hostOps0_3, hostOps0_4, hostOps0_5, hostOps0_6, hostOps0_7, hostOps0_8, List.flatten_cons, List.flatten_nil, List.append_nil, List.cons_append, List.nil_append]
  after_results
  rfl

/-- The result buffer after the host operations that follow the region. -/
theorem AT_v27 (c : Dev nD) : AT m c main_v27 = tailOf (V m c main_v13) ((dats m 0 c).arrAt 3 cfg0.N) := by
  unfold AT
  simp only [hostOps1, List.flatten_cons, List.flatten_nil, List.append_nil]
  after_results
  have e20 : Pipeline.withArrays winD c (V0 m c) (AD m c) (Proc.devRef .tc main_v20) = AD m c 2 :=
    Pipeline.withArrays_arr winD winD_inj c (V0 m c) (AD m c) 2
  have e13 : Pipeline.withArrays winD c (V0 m c) (AD m c) (Proc.devRef .tc main_v13) = V0 m c (Proc.devRef .tc main_v13) :=
    Pipeline.withArrays_of_ne winD c (V0 m c) (AD m c) main_v13 (by decide)
  rw [e20, e13]
  have eO : AD m c 2 = (dats m 0 c).arrAt 3 cfg0.N := rfl
  rw [eO]
  generalize (dats m 0 c).arrAt 3 cfg0.N = O
  rfl

end Cert.KernelIdeal.Hand

end
-- ==== Proof.KITailSum.lean ====
/-
  The host operations after the region, read at the exact reals' extension: the result array [64, 128] regarded as
  [8, 8, 128], its entries (i, 0, 0) taken and summed from zero — the sum over i of the array's entry (8 i, 0).
-/
import proofs.«162464_j90563680404074_2_alg».proof.Proof.Gen.KernelIdeal
import Idealize.ShloMosaic.Lib.ValueIdx
import Idealize.ShloMosaic.Lib.Pipeline.Value
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-- The one-per-row-tile totals picked out of the result array and summed from zero. -/
def tailLoss (O : FVec Ideal S64x128 .f32) : FVec Ideal S_ .f32 :=
  Host.reduceAdd (F := Ideal)
    (shapeCast S8 (extractStridedSlice S8x1x1 ![0, 0, 0] (shapeCast S8x8x128 O shapeCasts_S64x128_S8x8x128) slices_S8x8x128_S8x1x1_0_0_0) shapeCasts_S8x1x1_S8)
    (constant (F := Ideal) S_ .f32 0x00000000#32) reducesTo_S8_S_d0 h_S_

/-- An index of a vector of eight is its one coordinate. -/
def idx8 : S8.Idx ≃ Fin 8 where
  toFun j := j 0
  invFun a := ix1 a
  left_inv j := (eq_ix1 j).symm
  right_inv _ := rfl

/-- Entry a of the picked totals is the result array's entry (8 a, 0). -/
theorem picked_apply (O : FVec Ideal S64x128 .f32) (a : Fin 8) :
    shapeCast S8 (extractStridedSlice S8x1x1 ![0, 0, 0] (shapeCast S8x8x128 O shapeCasts_S64x128_S8x8x128) slices_S8x8x128_S8x1x1_0_0_0) shapeCasts_S8x1x1_S8 (ix1 a)
      = O (ix2 (⟨8 * a.val, by omega⟩ : Fin 64) (⟨0, by omega⟩ : Fin 128)) := by
  rw [shapeCast_apply _ shapeCasts_S8x1x1_S8 (ix1 a) (ix3 a (0 : Fin 1) (0 : Fin 1)) (by
    rw [Shape.rowMajor_val_three, Shape.rowMajor_val_one]
    show (a.val * 1 + 0) * 1 + 0 = a.val
    omega)]
  rw [extractStridedSlice_apply ![0, 0, 0] _ slices_S8x8x128_S8x1x1_0_0_0 (ix3 a (0 : Fin 1) (0 : Fin 1)) (ix3 a (0 : Fin 8) (0 : Fin 128)) (by
    intro b
    match b with
    | ⟨0, _⟩ => show a.val = 0 + a.val; omega
    | ⟨1, _⟩ => show 0 = 0 + 0; rfl
    | ⟨2, _⟩ => show 0 = 0 + 0; rfl)]
  rw [shapeCast_apply O shapeCasts_S64x128_S8x8x128 (ix3 a (0 : Fin 8) (0 : Fin 128)) (ix2 (⟨8 * a.val, by omega⟩ : Fin 64) (⟨0, by omega⟩ : Fin 128)) (by
    rw [Shape.rowMajor_val_two, Shape.rowMajor_val_three]
    show 8 * a.val * 128 + 0 = (a.val * 8 + 0) * 128 + 0
    omega)]

/-- The sum of the picked totals, from zero. -/
theorem tailLoss_apply (O : FVec Ideal S64x128 .f32) (i : S_.Idx) :
    tailLoss O i = 0 + ∑ a : Fin 8, O (ix2 (⟨8 * a.val, by omega⟩ : Fin 64) (⟨0, by omega⟩ : Fin 128)) := by
  unfold tailLoss
  simp only [Host.reduceAdd, Ideal.hostReduceAdd_def]
  rw [Ideal.hostReduceAdd_total reducesTo_S8_S_d0 (fun b => b.elim0) _ _ i]
  congr 1
  · exact Ideal.ofBits_zero_f32
  · refine Fintype.sum_equiv idx8 _ _ (fun j => ?_)
    obtain ⟨a, rfl⟩ : ∃ a : Fin 8, j = ix1 a := ⟨j 0, eq_ix1 j⟩
    exact picked_apply O a

end Cert.KernelIdeal.Hand

end
-- ==== Proof.RefImports.lean ====
/- The reference program's run and its stages read at an index: the generated modules, gathered under one import. -/
import proofs.«162464_j90563680404074_2_alg».proof.Proof.Gen.ReferenceIdeal.Read
-- ==== Proof.Spec.lean ====
/-
  The mathematics both programs compute, over the extended reals, stated with no program in sight.

  For a matrix `a` of 8192 rows of 256 entries and a square matrix `s` of side 8192, the squared gap at (R, C) is
  (⟨a_R, a_C⟩ − s(R, C))², the inner product taken over the 256 entries of the two rows. The loss numerator is the
  sum of the squared gaps over all 8192 × 8192 pairs. The same sum can be taken tile by tile: the pairs split into
  8 × 8 tiles of 1024 × 1024 pairs, tile (i, j) holding the pairs (1024 i + r, 1024 j + c).
-/
import Idealize.ShloMosaic.PureOps.Ideal
import Idealize.ShloMosaic.Lib.ValueIdx

noncomputable section

open scoped BigOperators

namespace Cert.Spec

open Idealize.ShloMosaic Idealize.ShloMosaic.ValueIdx

/-- The shape of the row matrix: 8192 rows of 256 entries. -/
abbrev SA : Shape := ⟨2, ![8192, 256]⟩
/-- The shape of the square matrix of targets. -/
abbrev SS : Shape := ⟨2, ![8192, 8192]⟩

/-- Row R against row C: the inner product over the 256 entries. -/
def inner (a : SA.Idx → EReal) (R C : Fin 8192) : EReal := ∑ k : Fin 256, a (ix2 R k) * a (ix2 C k)

/-- The squared gap between the inner product of rows R and C and the target at (R, C). -/
def gap (a : SA.Idx → EReal) (s : SS.Idx → EReal) (R C : Fin 8192) : EReal :=
  (inner a R C - s (ix2 R C)) * (inner a R C - s (ix2 R C))

/-- The sum of the squared gaps over every pair of rows. -/
def total (a : SA.Idx → EReal) (s : SS.Idx → EReal) : EReal := ∑ R : Fin 8192, ∑ C : Fin 8192, gap a s R C

/-- Row r of row-block i (blocks of 1024 rows). -/
def row (i : Fin 8) (r : Fin 1024) : Fin 8192 := ⟨1024 * i.val + r.val, by omega⟩

/-- The sum of the squared gaps over tile (i, j): rows 1024 i + r against rows 1024 j + c. -/
def tile (a : SA.Idx → EReal) (s : SS.Idx → EReal) (i j : Fin 8) : EReal :=
  ∑ r : Fin 1024, ∑ c : Fin 1024, gap a s (row i r) (row j c)

/-- A sum over the 8192 rows is the sum over the 8 row-blocks of the sums over the 1024 rows of each: every row is
    row r of block i for exactly one pair (i, r), namely i = R / 1024 and r = R % 1024. -/
theorem sum_rows {M : Type*} [AddCommMonoid M] (f : Fin 8192 → M) :
    ∑ R : Fin 8192, f R = ∑ i : Fin 8, ∑ r : Fin 1024, f (row i r) := by
  let e : Fin 8 × Fin 1024 ≃ Fin 8192 :=
    { toFun := fun p => row p.1 p.2
      invFun := fun R => (⟨R.val / 1024, by have := R.isLt; omega⟩, ⟨R.val % 1024, by omega⟩)
      left_inv := fun p => by
        obtain ⟨i, r⟩ := p
        have hi := i.isLt
        have hr := r.isLt
        refine Prod.ext (Fin.ext ?_) (Fin.ext ?_)
        · show (1024 * i.val + r.val) / 1024 = i.val
          omega
        · show (1024 * i.val + r.val) % 1024 = r.val
          omega
      right_inv := fun R => Fin.ext (by
        show 1024 * (R.val / 1024) + R.val % 1024 = R.val
        omega) }
  rw [← Equiv.sum_comp e f, Fintype.sum_prod_type]
  rfl

/-- The sum over all pairs of rows is the sum of the 8 × 8 tile sums: split both row indices into block and row
    within the block, then exchange the sum over the rows of block i with the sum over the column blocks j. Only
    the commutativity and associativity of addition are used, so no entry has to be finite. -/
theorem total_eq_tiles (a : SA.Idx → EReal) (s : SS.Idx → EReal) :
    total a s = ∑ i : Fin 8, ∑ j : Fin 8, tile a s i j := by
  unfold total tile
  rw [sum_rows]
  refine Finset.sum_congr rfl fun i _ => ?_
  calc ∑ r : Fin 1024, ∑ C : Fin 8192, gap a s (row i r) C
      = ∑ r : Fin 1024, ∑ j : Fin 8, ∑ c : Fin 1024, gap a s (row i r) (row j c) :=
        Finset.sum_congr rfl fun r _ => sum_rows _
    _ = ∑ j : Fin 8, ∑ r : Fin 1024, ∑ c : Fin 1024, gap a s (row i r) (row j c) := Finset.sum_comm

end Cert.Spec

end
-- ==== Proof.RefValue.lean ====
/-
  The reference program's result as mathematics. Its last stages form the product of the normalised anchor rows with
  their own transpose, subtract the target matrix, square, sum over both axes, divide by 2^26, multiply by one and
  add the triplet term. Read entry by entry, the double sum is the sum over all pairs of rows of the squared gap
  between the inner product of the two rows and the target, which is what the specification calls the total. The
  normalised rows and the triplet term are kept as the reference's own compositions of operations and never opened.
-/
import proofs.«162464_j90563680404074_2_alg».proof.Proof.RefImports
import proofs.«162464_j90563680404074_2_alg».proof.Proof.Spec

noncomputable section

open scoped BigOperators

namespace Cert.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The anchor rows, each divided by the larger of its norm and the clamp word: the reference's own operations on the
    first argument array, in the reference's own order (squares, sum along each row, square root, maximum with the
    clamp, division). Kept as one term: it is compared with the other program's term as a whole, never opened. -/
def refAhat (x0 : FVec Ideal S8192x256 .f32) : FVec Ideal S8192x256 .f32 :=
  Host.divf (F := Ideal) x0 (broadcastInDim S8192x256 ![0, 1] bcast_S8192x1_S8192x256_0_1 (maximumf (Host.sqrt (F := Ideal) (broadcastInDim S8192x1 ![0] bcast_S8192_S8192x1_0 (Host.reduceAdd (F := Ideal) (mulf x0 x0) (constant (F := Ideal) S_ .f32 0x00000000#32) reducesTo_S8192x256_S8192_d1 h_S_))) (broadcastInDim S8192x1 ![] bcast_S_S8192x1 (constant (F := Ideal) S_ .f32 0x322BCC77#32))))

/-- The triplet term: the mean over the rows of max(‖anchor − positive + ε‖ − ‖anchor − negative + ε‖ + margin, 0),
    again as the reference's own operations on the first three argument arrays, kept as one term. -/
def refTriplet (x0 x1 x2 : FVec Ideal S8192x256 .f32) : FVec Ideal S_ .f32 :=
  Host.divf (F := Ideal) (Host.reduceAdd (F := Ideal) (maximumf (addf (subf (Host.sqrt (F := Ideal) (Host.reduceAdd (F := Ideal) (mulf (addf (subf x0 x1) (broadcastInDim S8192x256 ![] bcast_S_S8192x256 (constant (F := Ideal) S_ .f32 0x358637BD#32))) (addf (subf x0 x1) (broadcastInDim S8192x256 ![] bcast_S_S8192x256 (constant (F := Ideal) S_ .f32 0x358637BD#32)))) (constant (F := Ideal) S_ .f32 0x00000000#32) reducesTo_S8192x256_S8192_d1 h_S_)) (Host.sqrt (F := Ideal) (Host.reduceAdd (F := Ideal) (mulf (addf (subf x0 x2) (broadcastInDim S8192x256 ![] bcast_S_S8192x256 (constant (F := Ideal) S_ .f32 0x358637BD#32))) (addf (subf x0 x2) (broadcastInDim S8192x256 ![] bcast_S_S8192x256 (constant (F := Ideal) S_ .f32 0x358637BD#32)))) (constant (F := Ideal) S_ .f32 0x00000000#32) reducesTo_S8192x256_S8192_d1 h_S_))) (broadcastInDim S8192 ![] bcast_S_S8192 (constant (F := Ideal) S_ .f32 0x3E4CCCCD#32))) (broadcastInDim S8192 ![] bcast_S_S8192 (constant (F := Ideal) S_ .f32 0x00000000#32))) (constant (F := Ideal) S_ .f32 0x00000000#32) reducesTo_S8192_S_d0 h_S_) (constant (F := Ideal) S_ .f32 0x46000000#32)

/-- The normalised rows are the reference's stage that divides the anchor by its clamped norm. -/
theorem refAhat_eq (x0 : FVec Ideal S8192x256 .f32) : refAhat x0 = val_main_v18 (F := Ideal) x0 := rfl

/-- The triplet term is the reference's stage that divides the sum of the hinge terms by the number of rows. -/
theorem refTriplet_eq (x0 x1 x2 : FVec Ideal S8192x256 .f32) :
    refTriplet x0 x1 x2 = val_main_v13 (F := Ideal) x0 x1 x2 := rfl

/-- The left operand of the product at (R, C), contraction index k, is read at (R, k). -/
theorem lidx_eq (R C : Fin 8192) (k : Fin 256) : lidx_main_v20 (ix2 R C) k = ix2 R k :=
  funext fun a => Fin.ext (by match a with | ⟨0, _⟩ => rfl | ⟨1, _⟩ => rfl)

/-- The right operand is the transpose read at (k, C), that is the normalised rows read at (C, k). -/
theorem ridx_eq (R C : Fin 8192) (k : Fin 256) : idx_main_v19 (ridx_main_v20 (ix2 R C) k) = ix2 C k :=
  funext fun a => Fin.ext (by match a with | ⟨0, _⟩ => rfl | ⟨1, _⟩ => rfl)

/-- The reference's sum, over both axes and from the zero word, of the squared differences between the product of the
    normalised rows with their transpose and the target matrix is zero plus the sum of the squared gaps over all
    pairs of rows: the entry (R, C) of the product is the inner product of rows R and C, and the sum over a
    two-axis index set is the double sum over its coordinates. -/
theorem ref_loss (x0 : FVec Ideal S8192x256 .f32) (x3 : FVec Ideal S8192x8192 .f32) :
    Host.reduceAdd (F := Ideal) (mulf (subf (Host.dotGeneral (F := Ideal) dot_S8192x256_S256x8192_S8192x8192_1_0_0_1_n_n none (refAhat x0) (transpose S256x8192 [1, 0] (refAhat x0) transposes_S8192x256_S256x8192_1_0)) x3) (subf (Host.dotGeneral (F := Ideal) dot_S8192x256_S256x8192_S8192x8192_1_0_0_1_n_n none (refAhat x0) (transpose S256x8192 [1, 0] (refAhat x0) transposes_S8192x256_S256x8192_1_0)) x3)) (constant (F := Ideal) S_ .f32 0x00000000#32) reducesTo_S8192x8192_S_d0_1 h_S_
      = fun _ => (0 : EReal) + Cert.Spec.total (refAhat x0) x3 := by
  show val_main_v23 (F := Ideal) x0 x3 = _
  funext i
  rw [val_main_v23_apply, val_main_cst_5_apply, Ideal.ofBits_def, Ideal.ofBits_zero_f32, sum_idx2]
  refine congrArg (_ + ·) ?_
  unfold Cert.Spec.total
  refine Finset.sum_congr rfl fun R _ => Finset.sum_congr rfl fun C _ => ?_
  rw [val_main_v22_apply, val_main_v21_apply, val_main_v20_apply, Ideal.mulf_def, Ideal.subf_def]
  unfold Cert.Spec.gap Cert.Spec.inner
  simp only [val_main_v19_apply, lidx_eq, ridx_eq, refAhat_eq]

/-- The reference's result as a function of the four argument arrays: the triplet term plus the one word times the
    quotient of (zero plus the sum of the squared gaps) by the word of 2^26. The last three operations act on
    scalars; the two float words stay as words. -/
theorem ref_value (x0 x1 x2 : FVec Ideal S8192x256 .f32) (x3 : FVec Ideal S8192x8192 .f32) :
    addf (Host.divf (F := Ideal) (Host.reduceAdd (F := Ideal) (maximumf (addf (subf (Host.sqrt (F := Ideal) (Host.reduceAdd (F := Ideal) (mulf (addf (subf x0 x1) (broadcastInDim S8192x256 ![] bcast_S_S8192x256 (constant (F := Ideal) S_ .f32 0x358637BD#32))) (addf (subf x0 x1) (broadcastInDim S8192x256 ![] bcast_S_S8192x256 (constant (F := Ideal) S_ .f32 0x358637BD#32)))) (constant (F := Ideal) S_ .f32 0x00000000#32) reducesTo_S8192x256_S8192_d1 h_S_)) (Host.sqrt (F := Ideal) (Host.reduceAdd (F := Ideal) (mulf (addf (subf x0 x2) (broadcastInDim S8192x256 ![] bcast_S_S8192x256 (constant (F := Ideal) S_ .f32 0x358637BD#32))) (addf (subf x0 x2) (broadcastInDim S8192x256 ![] bcast_S_S8192x256 (constant (F := Ideal) S_ .f32 0x358637BD#32)))) (constant (F := Ideal) S_ .f32 0x00000000#32) reducesTo_S8192x256_S8192_d1 h_S_))) (broadcastInDim S8192 ![] bcast_S_S8192 (constant (F := Ideal) S_ .f32 0x3E4CCCCD#32))) (broadcastInDim S8192 ![] bcast_S_S8192 (constant (F := Ideal) S_ .f32 0x00000000#32))) (constant (F := Ideal) S_ .f32 0x00000000#32) reducesTo_S8192_S_d0 h_S_) (constant (F := Ideal) S_ .f32 0x46000000#32)) (mulf (constant (F := Ideal) S_ .f32 0x3F800000#32) (Host.divf (F := Ideal) (Host.reduceAdd (F := Ideal) (mulf (subf (Host.dotGeneral (F := Ideal) dot_S8192x256_S256x8192_S8192x8192_1_0_0_1_n_n none (Host.divf (F := Ideal) x0 (broadcastInDim S8192x256 ![0, 1] bcast_S8192x1_S8192x256_0_1 (maximumf (Host.sqrt (F := Ideal) (broadcastInDim S8192x1 ![0] bcast_S8192_S8192x1_0 (Host.reduceAdd (F := Ideal) (mulf x0 x0) (constant (F := Ideal) S_ .f32 0x00000000#32) reducesTo_S8192x256_S8192_d1 h_S_))) (broadcastInDim S8192x1 ![] bcast_S_S8192x1 (constant (F := Ideal) S_ .f32 0x322BCC77#32))))) (transpose S256x8192 [1, 0] (Host.divf (F := Ideal) x0 (broadcastInDim S8192x256 ![0, 1] bcast_S8192x1_S8192x256_0_1 (maximumf (Host.sqrt (F := Ideal) (broadcastInDim S8192x1 ![0] bcast_S8192_S8192x1_0 (Host.reduceAdd (F := Ideal) (mulf x0 x0) (constant (F := Ideal) S_ .f32 0x00000000#32) reducesTo_S8192x256_S8192_d1 h_S_))) (broadcastInDim S8192x1 ![] bcast_S_S8192x1 (constant (F := Ideal) S_ .f32 0x322BCC77#32))))) transposes_S8192x256_S256x8192_1_0)) x3) (subf (Host.dotGeneral (F := Ideal) dot_S8192x256_S256x8192_S8192x8192_1_0_0_1_n_n none (Host.divf (F := Ideal) x0 (broadcastInDim S8192x256 ![0, 1] bcast_S8192x1_S8192x256_0_1 (maximumf (Host.sqrt (F := Ideal) (broadcastInDim S8192x1 ![0] bcast_S8192_S8192x1_0 (Host.reduceAdd (F := Ideal) (mulf x0 x0) (constant (F := Ideal) S_ .f32 0x00000000#32) reducesTo_S8192x256_S8192_d1 h_S_))) (broadcastInDim S8192x1 ![] bcast_S_S8192x1 (constant (F := Ideal) S_ .f32 0x322BCC77#32))))) (transpose S256x8192 [1, 0] (Host.divf (F := Ideal) x0 (broadcastInDim S8192x256 ![0, 1] bcast_S8192x1_S8192x256_0_1 (maximumf (Host.sqrt (F := Ideal) (broadcastInDim S8192x1 ![0] bcast_S8192_S8192x1_0 (Host.reduceAdd (F := Ideal) (mulf x0 x0) (constant (F := Ideal) S_ .f32 0x00000000#32) reducesTo_S8192x256_S8192_d1 h_S_))) (broadcastInDim S8192x1 ![] bcast_S_S8192x1 (constant (F := Ideal) S_ .f32 0x322BCC77#32))))) transposes_S8192x256_S256x8192_1_0)) x3)) (constant (F := Ideal) S_ .f32 0x00000000#32) reducesTo_S8192x8192_S_d0_1 h_S_) (constant (F := Ideal) S_ .f32 0x4C800000#32)))
      = fun _ => refTriplet x0 x1 x2 ix0 + Ideal.ofBits .f32 0x3F800000#32 * Ideal.div ((0 : EReal) + Cert.Spec.total (refAhat x0) x3) (Ideal.ofBits .f32 0x4C800000#32) := by
  show val_main_v26 (F := Ideal) x0 x1 x2 x3 = _
  funext i
  have hi := eq_ix0 i
  subst hi
  have h23 : val_main_v23 (F := Ideal) x0 x3 = fun _ => (0 : EReal) + Cert.Spec.total (refAhat x0) x3 := ref_loss x0 x3
  rw [val_main_v26_apply, val_main_v25_apply, val_main_v24_apply, val_main_cst_7_apply, val_main_cst_6_apply, h23,
    ← refTriplet_eq]
  rfl

/-- Every weakly fair execution of the reference ends with its result at the value above of the four argument arrays
    as the launch found them, and leaves the four arrays as they were. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v26) = (fun _ => refTriplet (m' ((c.tc : Thread nD τ).loc main_arg0)) (m' ((c.tc : Thread nD τ).loc main_arg1)) (m' ((c.tc : Thread nD τ).loc main_arg2)) ix0 + Ideal.ofBits .f32 0x3F800000#32 * Ideal.div ((0 : EReal) + Cert.Spec.total (refAhat (m' ((c.tc : Thread nD τ).loc main_arg0))) (m' ((c.tc : Thread nD τ).loc main_arg3))) (Ideal.ofBits .f32 0x4C800000#32))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3) :=
  (θ_run defs _ _).mono (fun _ h c => ⟨(h c).1.trans (ref_value _ _ _ _), (h c).2⟩)
    (Cert.ReferenceIdeal.Value.run (F := Ideal) m' ρ')

end Cert.RefValue

end
-- ==== Proof.KIHostEq.lean ====
/-
  The kernel's host operations at the exact reals' extension: before the region they are the reference's own,
  operation by operation; after it, at the one scalar index, the triplet term plus one times the quotient of the
  summed per-row-tile totals by the number of pairs.
-/
import proofs.«162464_j90563680404074_2_alg».proof.Proof.KIHost
import proofs.«162464_j90563680404074_2_alg».proof.Proof.KITailSum
import proofs.«162464_j90563680404074_2_alg».proof.Proof.RefValue

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)

/-- The normalised rows: the kernel's composition of host operations is the reference's. -/
theorem kerAhat_eq (x0 : FVec Ideal S8192x256 .f32) : kerAhat (F := Ideal) x0 = Cert.RefValue.refAhat x0 := rfl
/-- The triplet term likewise. -/
theorem kerTriplet_eq (x0 x1 x2 : FVec Ideal S8192x256 .f32) : kerTriplet (F := Ideal) x0 x1 x2 = Cert.RefValue.refTriplet x0 x1 x2 := rfl

/-- The host operations after the region at the one scalar index. -/
theorem tailOf_apply (t13 : FVec Ideal S_ .f32) (O : FVec Ideal S64x128 .f32) (i : S_.Idx) :
    tailOf (F := Ideal) t13 O i = t13 i + Ideal.ofBits .f32 0x3F800000#32 * Ideal.div (tailLoss O i) (Ideal.ofBits .f32 0x4C800000#32) := rfl

/-- Narrowing to a shorter float format is the identity on exact values. -/
theorem narrow_id (Y : FVec Ideal S8192x256 .f32) : truncf (F := Ideal) .bf16 Y bitsLt_bf16_f32 = Y := rfl

end Cert.KernelIdeal.Hand

end
-- ==== Proof.KIPieces.lean ====
/-
  The pieces each case of the body leaves, read back as values: the accumulator (and at the last column tile the
  output block) ends at the body's one payload of the three input blocks and the accumulator found.
-/
import proofs.«162464_j90563680404074_2_alg».proof.Proof.KICases
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The column block the body loads out of the resident rows: 1024 rows from row 1024 · (column-tile coordinate). -/
abbrev colBlk (i : grid0.Coords) (x1 : Vec F S8192x256 .bf16) : Vec F S1024x256 .bf16 :=
  View.ld x1 (Rect.unit (s := S8192x256) (k0_off1 i) S1024x256.size (k0_off1_inb i))

theorem accMid_eq (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole) (hc0 : ¬condFirst i) (hc1 : ¬condLast i) (x0 : Vec F S1024x256 .bf16) (x1 : Vec F S8192x256 .bf16) (x2 : Vec F S1024x1024 .f32) (xs : Vec F S8x128 .f32) :
    accMid (F := F) c i arg2 harg2 arg3 harg3 arg4 harg4 arg5 harg5 arg6 harg6 hc0 hc1 x0 x1 x2 xs = k0_pay2 (colBlk i x1) x0 x2 xs := by
  unfold accMid
  rw [View.read_writes_eq_canon _ _ _ (coverMid (F := F) c i arg2 harg2 arg3 harg3 arg4 harg4 arg5 harg5 arg6 harg6 hc0 hc1 x0 x1 x2 xs)]
  unfold runMid
  dsimp only
  rw [View.canon_unit_zero hz]
  simp only [View.readAt_eq_ld, harg2.read_unread, harg3.read_unread, harg4.read_unread, harg6.read_unread, View.ld_unit_zero (S := S1024x256) hz, View.ld_unit_zero (S := S1024x1024) hz, View.ld_unit_zero (S := S8x128) hz]
  try rfl

theorem accFirst_eq (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole) (hc0 : condFirst i) (hc1 : ¬condLast i) (x0 : Vec F S1024x256 .bf16) (x1 : Vec F S8192x256 .bf16) (x2 : Vec F S1024x1024 .f32) :
    accFirst (F := F) c i arg2 harg2 arg3 harg3 arg4 harg4 arg5 harg5 arg6 harg6 hc0 hc1 x0 x1 x2 = k0_pay2 (colBlk i x1) x0 x2 k0_pay1 := by
  unfold accFirst
  rw [View.read_writes_eq_canon _ _ _ (coverFirst (F := F) c i arg2 harg2 arg3 harg3 arg4 harg4 arg5 harg5 arg6 harg6 hc0 hc1 x0 x1 x2)]
  unfold runFirst
  dsimp only
  sl_unfold_words
  rw [View.canon_cons_unit_zero (S := S8x128) hz, View.readCov_unit_zero (S := S8x128) _ hz]
  simp only [View.readAt_eq_ld, harg2.read_unread, harg3.read_unread, harg4.read_unread, harg6.read_unread, View.ld_unit_zero (S := S1024x256) hz, View.ld_unit_zero (S := S1024x1024) hz, View.ld_unit_zero (S := S8x128) hz]
  try rfl

theorem outLast_eq (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole) (hc0 : ¬condFirst i) (hc1 : condLast i) (x0 : Vec F S1024x256 .bf16) (x1 : Vec F S8192x256 .bf16) (x2 : Vec F S1024x1024 .f32) (xs : Vec F S8x128 .f32) :
    outLast (F := F) c i arg2 harg2 arg3 harg3 arg4 harg4 arg5 harg5 arg6 harg6 hc0 hc1 x0 x1 x2 xs = k0_pay2 (colBlk i x1) x0 x2 xs := by
  unfold outLast
  rw [View.read_writes_eq_canon _ _ _ (coverLastOut (F := F) c i arg2 harg2 arg3 harg3 arg4 harg4 arg5 harg5 arg6 harg6 hc0 hc1 x0 x1 x2 xs)]
  unfold runLast
  dsimp only
  sl_unfold_words
  rw [View.canon_unit_zero hz, View.readCov_unit_zero (S := S8x128) _ hz]
  simp only [View.readAt_eq_ld, harg2.read_unread, harg3.read_unread, harg4.read_unread, harg6.read_unread, View.ld_unit_zero (S := S1024x256) hz, View.ld_unit_zero (S := S1024x1024) hz, View.ld_unit_zero (S := S8x128) hz]
  try rfl

theorem accLast_eq (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1024 .f32) (harg4 : arg4.IsWhole) (arg5 : Memref sig .tc .vmem S8x128 .f32) (harg5 : arg5.IsWhole) (arg6 : Memref sig .tc .vmem S8x128 .f32) (harg6 : arg6.IsWhole) (hc0 : ¬condFirst i) (hc1 : condLast i) (x0 : Vec F S1024x256 .bf16) (x1 : Vec F S8192x256 .bf16) (x2 : Vec F S1024x1024 .f32) (xs : Vec F S8x128 .f32) :
    accLast (F := F) c i arg2 harg2 arg3 harg3 arg4 harg4 arg5 harg5 arg6 harg6 hc0 hc1 x0 x1 x2 xs = k0_pay2 (colBlk i x1) x0 x2 xs := by
  unfold accLast
  rw [View.read_writes_eq_canon _ _ _ (coverLastAcc (F := F) c i arg2 harg2 arg3 harg3 arg4 harg4 arg5 harg5 arg6 harg6 hc0 hc1 x0 x1 x2 xs)]
  unfold runLast
  dsimp only
  sl_unfold_words
  rw [View.canon_unit_zero hz]
  simp only [View.readAt_eq_ld, harg2.read_unread, harg3.read_unread, harg4.read_unread, harg6.read_unread, View.ld_unit_zero (S := S1024x256) hz, View.ld_unit_zero (S := S1024x1024) hz, View.ld_unit_zero (S := S8x128) hz]
  try rfl

end Cert.KernelIdeal.Hand

end
-- ==== Proof.KIBlocks.lean ====
/-
  The blocks the body reads, as entries of the arrays the region finds; and the accumulation over the grid in closed
  form: after the point of tile (i, j) the accumulator holds the body's payload folded over the column tiles 0 … j of
  row-tile i, from the reset value.
-/
import proofs.«162464_j90563680404074_2_alg».proof.Proof.KIBody
import proofs.«162464_j90563680404074_2_alg».proof.Proof.KIPieces
import proofs.«162464_j90563680404074_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)

variable {F : FTy → Type} [FloatOps F]

variable (m : (ℓ : Loc nD τ sig) → Buf (Elt F) ℓ)

/-! ## The printed index maps, decided over the grid -/

theorem idx0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = t.val / 8 ∧ win0_2.index t (1 : Fin 2) = t.val % 8 :=
  (by decide +kernel : ∀ t : Fin grid0.N, win0_2.index t (0 : Fin 2) = t.val / 8 ∧ win0_2.index t (1 : Fin 2) = t.val % 8)
theorem idx3 : ∀ t : Fin cfg0.N, win0_3.index t (0 : Fin 2) = t.val / 8 ∧ win0_3.index t (1 : Fin 2) = 0 :=
  (by decide +kernel : ∀ t : Fin grid0.N, win0_3.index t (0 : Fin 2) = t.val / 8 ∧ win0_3.index t (1 : Fin 2) = 0)
/-- The row the body's own slice of the resident rows starts at: 1024 times the column-tile coordinate. -/
theorem off1 : ∀ t : Fin cfg0.N, k0_off1 (grid0.coords t) (0 : Fin 2) = 1024 * (t.val % 8) ∧ k0_off1 (grid0.coords t) (1 : Fin 2) = 0 :=
  (by decide +kernel : ∀ t : Fin grid0.N, k0_off1 (grid0.coords t) (0 : Fin 2) = 1024 * (t.val % 8) ∧ k0_off1 (grid0.coords t) (1 : Fin 2) = 0)

/-- The row-tile and column-tile coordinates of a grid point. -/
def ti (t : Fin cfg0.N) : Fin 8 := ⟨t.val / 8, by have := t.isLt; have : cfg0.N = 64 := N_0; omega⟩
def tj (t : Fin cfg0.N) : Fin 8 := ⟨t.val % 8, by omega⟩

/-! ## The blocks as entries of the arrays -/

/-- The row block: row r of it is row 1024 i + r of the normalised rows. -/
theorem blk0_apply (c : Dev nD) (t : Fin cfg0.N) (r : Fin 1024) (k : Fin 256) :
    iblk m c 0 t (ix2 r k) = V m c main_v19 (ix2 (Cert.Spec.row (ti t) r) k) := by
  unfold iblk
  show V m c main_v19 (((cfg0.win 0).blk t).view.emb (ix2 r k)) = _
  refine congrArg (V m c main_v19) (funext fun a => Fin.ext ?_)
  match a with
  | ⟨0, _⟩ =>
    show win0_0.index t (0 : Fin 2) * 1024 + 1 * r.val = 1024 * (t.val / 8) + r.val
    rw [(idx0 t).1]; omega
  | ⟨1, _⟩ =>
    show win0_0.index t (1 : Fin 2) * 256 + 1 * k.val = k.val
    rw [(idx0 t).2]; omega

/-- The column block the body slices out of the resident rows: row cc of it is row 1024 j + cc. -/
theorem blk1_apply (c : Dev nD) (t : Fin cfg0.N) (cc : Fin 1024) (k : Fin 256) :
    colBlk (grid0.coords t) (iblk m c 1 t) (ix2 cc k) = V m c main_v19 (ix2 (Cert.Spec.row (tj t) cc) k) := by
  unfold iblk
  show V m c main_v19 (((cfg0.win 1).blk t).view.emb ((Rect.unit (s := S8192x256) (k0_off1 (grid0.coords t)) S1024x256.size (k0_off1_inb (grid0.coords t))).idx (ix2 cc k))) = _
  refine congrArg (V m c main_v19) (funext fun a => Fin.ext ?_)
  match a with
  | ⟨0, _⟩ =>
    show win0_1.index t (0 : Fin 2) * 8192 + 1 * (k0_off1 (grid0.coords t) (0 : Fin 2) + 1 * cc.val) = 1024 * (t.val % 8) + cc.val
    rw [(idx1 t).1, (off1 t).1]; omega
  | ⟨1, _⟩ =>
    show win0_1.index t (1 : Fin 2) * 256 + 1 * (k0_off1 (grid0.coords t) (1 : Fin 2) + 1 * k.val) = k.val
    rw [(idx1 t).2, (off1 t).2]; omega

/-- The tile of targets: entry (r, cc) of it is the target at (1024 i + r, 1024 j + cc). -/
theorem blk2_apply (c : Dev nD) (t : Fin cfg0.N) (r cc : Fin 1024) :
    iblk m c 2 t (ix2 r cc) = V m c main_arg3 (ix2 (Cert.Spec.row (ti t) r) (Cert.Spec.row (tj t) cc)) := by
  unfold iblk
  show V m c main_arg3 (((cfg0.win 2).blk t).view.emb (ix2 r cc)) = _
  refine congrArg (V m c main_arg3) (funext fun a => Fin.ext ?_)
  match a with
  | ⟨0, _⟩ =>
    show win0_2.index t (0 : Fin 2) * 1024 + 1 * r.val = 1024 * (t.val / 8) + r.val
    rw [(idx2 t).1]; omega
  | ⟨1, _⟩ =>
    show win0_2.index t (1 : Fin 2) * 1024 + 1 * cc.val = 1024 * (t.val % 8) + cc.val
    rw [(idx2 t).2]; omega

/-! ## The accumulation in closed form -/

/-- The body's payload at point `t`, from the accumulator found. -/
def step (c : Dev nD) (t : Fin cfg0.N) (acc : Vec F S8x128 .f32) : Vec F S8x128 .f32 :=
  k0_pay2 (colBlk (grid0.coords t) (iblk m c 1 t)) (iblk m c 0 t) (iblk m c 2 t) acc

/-- The accumulator after position `n`: the payload folded from the reset value, restarting at each point ≡ 0 (mod 8). -/
def fold (c : Dev nD) : (n : ℕ) → n < cfg0.N → Vec F S8x128 .f32
  | 0, hn => step m c ⟨0, hn⟩ k0_pay1
  | n + 1, hn => if (n + 1) % 8 = 0 then step m c ⟨n + 1, hn⟩ k0_pay1 else step m c ⟨n + 1, hn⟩ (fold c n (Nat.lt_of_succ_lt hn))

/-- What the grid's run leaves IS the fold: both components at every position (the output block's component, where
    the block is idle, was chosen to be the accumulator's). -/
theorem accAt_eq_fold (c : Dev nD) : ∀ (n : ℕ) (hn : n < cfg0.N), accAt m c n hn = (fold m c n hn, fold m c n hn)
  | 0, hn => by
    rw [show accAt m c 0 hn = accAt m c (⟨0, hn⟩ : Fin cfg0.N).val (⟨0, hn⟩ : Fin cfg0.N).isLt from rfl, accAt_first m c ⟨0, hn⟩ (Nat.zero_mod _) (by show ¬ (0 % 8 = 7); omega), accFirst_eq]
    rfl
  | n + 1, hn => by
    have ih := accAt_eq_fold c n (Nat.lt_of_succ_lt hn)
    by_cases h0 : (n + 1) % 8 = 0
    · rw [show accAt m c (n + 1) hn = accAt m c (⟨n + 1, hn⟩ : Fin cfg0.N).val (⟨n + 1, hn⟩ : Fin cfg0.N).isLt from rfl, accAt_first m c ⟨n + 1, hn⟩ h0 (by show ¬ ((n + 1) % 8 = 7); omega), accFirst_eq]
      unfold fold; rw [if_pos h0]; rfl
    · by_cases h1 : (n + 1) % 8 = 7
      · rw [show accAt m c (n + 1) hn = accAt m c (⟨n + 1, hn⟩ : Fin cfg0.N).val (⟨n + 1, hn⟩ : Fin cfg0.N).isLt from rfl, accAt_last m c ⟨n + 1, hn⟩ h0 h1, outLast_eq, accLast_eq]
        unfold fold; rw [if_neg h0]
        simp only [Nat.add_sub_cancel, ih]; rfl
      · rw [show accAt m c (n + 1) hn = accAt m c (⟨n + 1, hn⟩ : Fin cfg0.N).val (⟨n + 1, hn⟩ : Fin cfg0.N).isLt from rfl, accAt_mid m c ⟨n + 1, hn⟩ h0 h1, accMid_eq]
        unfold fold; rw [if_neg h0]
        simp only [Nat.add_sub_cancel, ih]; rfl

end Cert.KernelIdeal.Hand

end
-- ==== Proof.KIOut.lean ====
/-
  What the result array holds after the run: its rows 8 i … 8 i + 7 are the output block the last column tile of
  row-tile i wrote back — the accumulator after that point.
-/
import proofs.«162464_j90563680404074_2_alg».proof.Proof.KIBlocks

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)

variable {F : FTy → Type} [FloatOps F]

variable (m : (ℓ : Loc nD τ sig) → Buf (Elt F) ℓ)

theorem fold_eq_of (c : Dev nD) {n n' : ℕ} (hn : n < cfg0.N) (hn' : n' < cfg0.N) (e : n = n') (y y' : S8x128.Idx) (ey : y = y') :
    fold m c n hn y = fold m c n' hn' y' := by
  subst e; subst ey; rfl

theorem lastOfRow_lt (r : ℕ) (hr : r < 64) : 8 * (r / 8) + 7 < cfg0.N := by
  have : cfg0.N = 64 := N_0; omega

/-- What the result array ends holding: row R, lane l is entry (R % 8, l) of the accumulator after the last column
    tile of row-tile R / 8. -/
def GO (c : Dev nD) : Buf (Elt F) ((cfg0.win 3).arr.view.loc (c : Thread nD τ)) :=
  fun (y : S64x128.Idx) => fold m c (8 * ((y 0).val / 8) + 7) (lastOfRow_lt _ (y 0).isLt) (ix2 (⟨(y 0).val % 8, by omega⟩ : Fin 8) (y 1))

/-- What a point that writes back writes: its block of `GO`. -/
theorem flushed3_eq (c : Dev nD) (t : Fin cfg0.N) (hf : (cfg0.win 3).flush t = true) :
    (dats m 0 c).flushed 3 t = ((cfg0.win 3).blk t).view.read (Elt F) (GO m c) := by
  show (cfg0.win 3).cut (grid0.coords t) ((dats m 0 c).after 3 t) = _
  rw [after3, accAt_eq_fold]
  have h7 : t.val % 8 = 7 := (flush0_3 t).mp hf
  have hN : t.val < 64 := lt_of_lt_of_eq t.isLt (show cfg0.N = 64 from N_0)
  funext y
  obtain ⟨p, l, rfl⟩ : ∃ (p : Fin 8) (l : Fin 128), y = ix2 p l := ⟨y 0, y 1, eq_ix2 y⟩
  show fold m c t.val t.isLt (ix2 p l) = GO m c (((cfg0.win 3).blk t).view.emb (ix2 p l))
  have e0 : ((((cfg0.win 3).blk t).view.emb (ix2 p l)) (0 : Fin 2)).val = (t.val / 8) * 8 + p.val := by
    show win0_3.index t (0 : Fin 2) * 8 + 1 * p.val = _
    rw [(idx3 t).1]; omega
  have e1 : ((((cfg0.win 3).blk t).view.emb (ix2 p l)) (1 : Fin 2)).val = l.val := by
    show win0_3.index t (1 : Fin 2) * 128 + 1 * l.val = _
    rw [(idx3 t).2]; omega
  unfold GO
  refine fold_eq_of m c _ _ ?_ _ _ ?_
  · rw [e0]; have := p.isLt; omega
  · funext a
    match a with
    | ⟨0, _⟩ => exact Fin.ext (by show p.val = _ % 8; rw [e0]; have := p.isLt; omega)
    | ⟨1, _⟩ => exact Fin.ext e1.symm

/-- An index of the result array is in point `t`'s block iff each coordinate is in the block's range on its axis. -/
theorem mem_blk3 (t : Fin cfg0.N) (i : S64x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v20).slice (win0_3.rect t)).set ↔ _
  rw [View.set_slice_whole, Rect.mem_set_unit]
  exact Iff.rfl

/-- The first entry of row-tile i's rows of the result array: the accumulator after the last column tile, at (0, 0). -/
theorem out_apply (c : Dev nD) (i : Fin 8) :
    (dats m 0 c).arrAt 3 cfg0.N (ix2 (⟨8 * i.val, by omega⟩ : Fin 64) (⟨0, by omega⟩ : Fin 128))
      = fold m c (8 * i.val + 7) (by have : cfg0.N = 64 := N_0; omega) (ix2 (0 : Fin 8) (0 : Fin 128)) := by
  have hN : cfg0.N = 64 := N_0
  have hlt : 8 * i.val + 7 < cfg0.N := by omega
  have hfl : (cfg0.win 3).flush ⟨8 * i.val + 7, hlt⟩ = true := (flush0_3 ⟨8 * i.val + 7, hlt⟩).mpr (by show (8 * i.val + 7) % 8 = 7; omega)
  have hmem : (ix2 (⟨8 * i.val, by omega⟩ : Fin 64) (⟨0, by omega⟩ : Fin 128) : S64x128.Idx) ∈ ((cfg0.win 3).blk ⟨8 * i.val + 7, hlt⟩).view.set := by
    rw [mem_blk3]
    intro a
    match a with
    | ⟨0, _⟩ =>
      show win0_3.index ⟨8 * i.val + 7, hlt⟩ (0 : Fin 2) * 8 ≤ 8 * i.val ∧ 8 * i.val < win0_3.index ⟨8 * i.val + 7, hlt⟩ (0 : Fin 2) * 8 + 8
      rw [(idx3 ⟨8 * i.val + 7, hlt⟩).1]; show (8 * i.val + 7) / 8 * 8 ≤ 8 * i.val ∧ 8 * i.val < (8 * i.val + 7) / 8 * 8 + 8; omega
    | ⟨1, _⟩ =>
      show win0_3.index ⟨8 * i.val + 7, hlt⟩ (1 : Fin 2) * 128 ≤ 0 ∧ 0 < win0_3.index ⟨8 * i.val + 7, hlt⟩ (1 : Fin 2) * 128 + 128
      rw [(idx3 ⟨8 * i.val + 7, hlt⟩).2]; omega
  rw [(dats m 0 c).arrAt_apply_of_mem 3 (GO m c) (fun t hf => flushed3_eq m c t hf) cfg0.N ⟨8 * i.val + 7, hlt⟩ _ hlt hfl hmem]
  unfold GO
  refine fold_eq_of m c _ _ ?_ _ _ ?_
  · show 8 * (8 * i.val / 8) + 7 = 8 * i.val + 7; omega
  · funext a
    match a with
    | ⟨0, _⟩ => exact Fin.ext (by show 8 * i.val % 8 = 0; omega)
    | ⟨1, _⟩ => rfl

end Cert.KernelIdeal.Hand

end
-- ==== Proof.PayValue.lean ====
/-
  The arithmetic of the kernel body, read entry by entry over the extended reals.

  At each grid point the body holds a row block and a column block of the normalised rows (1024 rows of 256 entries
  each) and a 1024 × 1024 tile of targets. It multiplies the row block by the transposed column block, subtracts the
  targets, squares every entry, sums along the lanes and then down the rows, and adds the one total to every entry of
  an 8 × 128 accumulator. Read at an entry this is

      accumulator + Σ_r Σ_c (⟨row r of the row block, row c of the column block⟩ − target (r, c))²,

  the inner product taken over the 256 entries of the two rows; when the two blocks are blocks i and j of one matrix
  and the targets are tile (i, j) of one square matrix, the added total is the tile sum of the specification. At the
  first column tile the body first stores the zero block. No entry has to be finite: only the definitions of the
  operations at an index are used.
-/
import proofs.«162464_j90563680404074_2_alg».proof.Proof.Gen.KernelIdeal.Skeleton
import proofs.«162464_j90563680404074_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.PayValue

open Cert.KernelIdeal Cert.KernelIdeal.Gen Idealize.ShloMosaic Idealize.ShloMosaic.ValueIdx

/-! ## The layout operations of the body, read at an index -/

/-- A vector of 1024 entries viewed as a column `[1024, 1]` reads, at `(r, u)`, the vector at `r`. -/
theorem colCast_apply {α : Type} (x : S1024.Idx → α) (h : S1024.ShapeCasts S1024x1) (r : Fin 1024) (u : Fin 1) :
    shapeCast S1024x1 x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A `[1, 1]` array broadcast to `[8, 128]` reads its one entry everywhere. -/
theorem bcast_apply {α : Type} (v : S1x1.Idx → α) (h : S1x1.Broadcasts S8x128) (p : Fin 8) (l : Fin 128) :
    broadcastTo S8x128 v h (ix2 p l) = v (ix2 (0 : Fin 1) (0 : Fin 1)) := by
  refine broadcastTo_apply v h (ix2 p l) (ix2 (0 : Fin 1) (0 : Fin 1)) fun ax => ?_
  match ax with
  | ⟨0, _⟩ => rfl
  | ⟨1, _⟩ => rfl

/-! ## The two sums -/

/-- The sum along the lanes of a `[1024, 1024]` tile: at row `r`, the sum over the columns `c` of the tile at `(r, c)`. -/
theorem laneSum_apply (src : FVec Ideal S1024x1024 .f32) (h : S1024x1024.Reduces [1] S1024)
    (hφ : FKind.Formats .f32) (hacc : (0x00000000#32 : BitVec 32) = FKind.add.neutral .f32 hφ) (r : Fin 1024) :
    multiReduction (F := Ideal) .add [1] S1024 src 0x00000000#32 h hφ hacc (ix1 r) = ∑ c : Fin 1024, src (ix2 r c) := by
  refine (Ideal.multiReduction_add_single src 0x00000000#32 h hφ hacc (ix1 r)).trans ?_
  refine Finset.sum_congr rfl fun c _ => congrArg src (funext fun a => Fin.ext ?_)
  match a with
  | ⟨0, _⟩ => rfl
  | ⟨1, _⟩ => rfl

/-- The sum down a column `[1024, 1]`: the sum over the rows `r` of the column at `(r, u)`. -/
theorem rowSum_apply (src : FVec Ideal S1024x1 .f32) (h : S1024x1.Reduces [0] S1)
    (hφ : FKind.Formats .f32) (hacc : (0x00000000#32 : BitVec 32) = FKind.add.neutral .f32 hφ) (u : Fin 1) :
    multiReduction (F := Ideal) .add [0] S1 src 0x00000000#32 h hφ hacc (ix1 u) = ∑ r : Fin 1024, src (ix2 r u) := by
  refine (Ideal.multiReduction_add_single src 0x00000000#32 h hφ hacc (ix1 u)).trans ?_
  refine Finset.sum_congr rfl fun r _ => congrArg src (funext fun a => Fin.ext ?_)
  match a with
  | ⟨0, _⟩ => rfl
  | ⟨1, _⟩ => rfl

/-! ## The product of the row block with the transposed column block -/

section
variable [Cert.KernelIdeal.Facts]

/-- The left operand's index at result index `j`: its row is `j`'s row … -/
theorem lhs_row (j : S1024x1024.Idx) (q : dot_S1024x256_S1024x256_S1024x1024_1_1_0_0_n_n.contr.Idx) :
    (dot_S1024x256_S1024x256_S1024x1024_1_1_0_0_n_n.lhsIdx j q 0).val = (j 0).val := by
  unfold DotDims.lhsIdx
  rw [dif_neg (show ¬(0 : Fin S1024x256.rank) ∈ dot_S1024x256_S1024x256_S1024x1024_1_1_0_0_n_n.lhsBatch by decide),
    dif_pos (show (0 : Fin S1024x256.rank) ∈ dot_S1024x256_S1024x256_S1024x1024_1_1_0_0_n_n.lhsNonContracting by decide)]
  rfl
/-- … and its column the contraction position. -/
theorem lhs_col (j : S1024x1024.Idx) (q : dot_S1024x256_S1024x256_S1024x1024_1_1_0_0_n_n.contr.Idx) :
    (dot_S1024x256_S1024x256_S1024x1024_1_1_0_0_n_n.lhsIdx j q 1).val = (q ⟨0, by decide⟩).val :=
  dot_S1024x256_S1024x256_S1024x1024_1_1_0_0_n_n.lhsIdx_val_of_single rfl j q
/-- The right operand's index at result index `j`: its row is `j`'s COLUMN (the right block enters transposed) … -/
theorem rhs_row (j : S1024x1024.Idx) (q : dot_S1024x256_S1024x256_S1024x1024_1_1_0_0_n_n.contr.Idx) :
    (dot_S1024x256_S1024x256_S1024x1024_1_1_0_0_n_n.rhsIdx j q 0).val = (j 1).val := by
  unfold DotDims.rhsIdx
  rw [dif_neg (show ¬(0 : Fin S1024x256.rank) ∈ dot_S1024x256_S1024x256_S1024x1024_1_1_0_0_n_n.rhsBatch by decide),
    dif_pos (show (0 : Fin S1024x256.rank) ∈ dot_S1024x256_S1024x256_S1024x1024_1_1_0_0_n_n.rhsNonContracting by decide)]
  rfl
/-- … and its column the contraction position. -/
theorem rhs_col (j : S1024x1024.Idx) (q : dot_S1024x256_S1024x256_S1024x1024_1_1_0_0_n_n.contr.Idx) :
    (dot_S1024x256_S1024x256_S1024x1024_1_1_0_0_n_n.rhsIdx j q 1).val = (q ⟨0, by decide⟩).val :=
  dot_S1024x256_S1024x256_S1024x1024_1_1_0_0_n_n.rhsIdx_val_of_single rfl j q

/-- The body's matrix product contracts axis 1 of both operands: at `(r, c)` it is the inner product, over the 256
    entries, of row `r` of the left block with row `c` of the right block (the zero accumulator adds nothing). -/
theorem matmul_at (x y : FVec Ideal S1024x256 .bf16) (r c : Fin 1024) :
    matmul (F := Ideal) dot_S1024x256_S1024x256_S1024x1024_1_1_0_0_n_n none x y (constant S1024x1024 .f32 0x00000000#32) (ix2 r c)
      = ∑ k : Fin 256, x (ix2 r k) * y (ix2 c k) := by
  simp only [matmul]
  rw [Ideal.matmul_constant_zero_apply,
    ← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 r c) ((contrEquiv1 dot_S1024x256_S1024x256_S1024x1024_1_1_0_0_n_n 256 rfl rfl).symm k) = ix2 r k :=
    funext fun a => Fin.ext (by
      match a with
      | ⟨0, _⟩ => exact lhs_row _ _
      | ⟨1, _⟩ => exact (lhs_col _ _).trans hk)
  have er : dot_S1024x256_S1024x256_S1024x1024_1_1_0_0_n_n.rhsIdx (ix2 r c) ((contrEquiv1 dot_S1024x256_S1024x256_S1024x1024_1_1_0_0_n_n 256 rfl rfl).symm k) = ix2 c k :=
    funext fun a => Fin.ext (by
      match a with
      | ⟨0, _⟩ => exact rhs_row _ _
      | ⟨1, _⟩ => exact (rhs_col _ _).trans hk)
  rw [el, er]

end

/-! ## The body's two stored values -/

section
variable [Cert.KernelIdeal.Facts]

/-- What the body stores at the first column tile: the zero block. -/
theorem pay1_apply (y : S8x128.Idx) : k0_pay1 (F := Ideal) y = 0 := by
  unfold k0_pay1
  refine (congrFun (shapeCast_self _ _) y).trans ?_
  exact Ideal.ofBits_zero_f32

/-- What the body stores at every point, read at `(p, l)`: the accumulator there plus the sum, over the rows `r` and
    then the columns `c` of the 1024 × 1024 tile, of the squared difference between the inner product of row `r` of the
    row block with row `c` of the column block and the target at `(r, c)`. The same total lands on every `(p, l)`. -/
theorem pay2_apply (v6 v8 : Vec Ideal S1024x256 .bf16) (v11 : Vec Ideal S1024x1024 .f32) (v18 : Vec Ideal S8x128 .f32)
    (p : Fin 8) (l : Fin 128) :
    k0_pay2 (F := Ideal) v6 v8 v11 v18 (ix2 p l)
      = v18 (ix2 p l) + ∑ r : Fin 1024, ∑ c : Fin 1024,
          ((∑ k : Fin 256, v8 (ix2 r k) * v6 (ix2 c k)) - v11 (ix2 r c))
            * ((∑ k : Fin 256, v8 (ix2 r k) * v6 (ix2 c k)) - v11 (ix2 r c)) := by
  unfold k0_pay2
  -- the outer cast keeps the shape; the sum with the accumulator is entrywise
  refine (congrFun (shapeCast_self _ _) (ix2 p l)).trans ?_
  refine congrArg (v18 (ix2 p l) + ·) ?_
  -- the broadcast reads the one entry of the [1, 1] total, which two casts carry from the [1] total
  refine (bcast_apply _ _ p l).trans ?_
  refine (congrFun (shapeCast_self _ _) _).trans ?_
  refine (shapeCast_a_1a_apply _ _ (0 : Fin 1) (0 : Fin 1)).trans ?_
  -- the sum down the column of row totals
  refine (rowSum_apply _ _ _ _ (0 : Fin 1)).trans ?_
  refine Finset.sum_congr rfl fun r _ => ?_
  refine (colCast_apply _ _ r (0 : Fin 1)).trans ?_
  -- a row total: the sum along the lanes of the squared differences
  refine (laneSum_apply _ _ _ _ r).trans ?_
  refine Finset.sum_congr rfl fun c _ => ?_
  -- a squared difference: the product at (r, c) less the target there, times itself
  rw [shapeCast_self v8, shapeCast_self v6]
  exact congrArg (fun m => (m - v11 (ix2 r c)) * (m - v11 (ix2 r c))) (matmul_at v8 v6 r c)

/-- When the column block holds rows `1024 j + c` of `a`, the row block rows `1024 i + r`, and the target tile the entries
    `(1024 i + r, 1024 j + c)` of `s`, the body adds the sum of the squared gaps over tile `(i, j)` to every accumulator
    entry. -/
theorem pay2_tile (a : Cert.Spec.SA.Idx → EReal) (s : Cert.Spec.SS.Idx → EReal) (i j : Fin 8)
    (v6 v8 : Vec Ideal S1024x256 .bf16) (v11 : Vec Ideal S1024x1024 .f32) (v18 : Vec Ideal S8x128 .f32)
    (h6 : ∀ (c : Fin 1024) (k : Fin 256), v6 (ix2 c k) = a (ix2 (Cert.Spec.row j c) k))
    (h8 : ∀ (r : Fin 1024) (k : Fin 256), v8 (ix2 r k) = a (ix2 (Cert.Spec.row i r) k))
    (h11 : ∀ (r c : Fin 1024), v11 (ix2 r c) = s (ix2 (Cert.Spec.row i r) (Cert.Spec.row j c)))
    (y : S8x128.Idx) :
    k0_pay2 (F := Ideal) v6 v8 v11 v18 y = v18 y + Cert.Spec.tile a s i j := by
  obtain ⟨p, l, rfl⟩ : ∃ (p : Fin 8) (l : Fin 128), y = ix2 p l := ⟨y 0, y 1, eq_ix2 y⟩
  rw [pay2_apply]
  refine congrArg (v18 (ix2 p l) + ·) ?_
  unfold Cert.Spec.tile Cert.Spec.gap Cert.Spec.inner
  refine Finset.sum_congr rfl fun r _ => Finset.sum_congr rfl fun c _ => ?_
  rw [h11 r c]
  have hin : (∑ k : Fin 256, v8 (ix2 r k) * v6 (ix2 c k))
      = ∑ k : Fin 256, a (ix2 (Cert.Spec.row i r) k) * a (ix2 (Cert.Spec.row j c) k) :=
    Finset.sum_congr rfl fun k _ => by rw [h8 r k, h6 c k]
  rw [hin]

end

end Cert.PayValue

end
-- ==== Proof.PrefixSum.lean ====
/-
  Sums of the first terms of a family indexed by eight positions, in an additive commutative monoid: the sum of the
  terms at positions 0 … k, how it grows by one term, and that at k = 7 it is the whole sum.
-/
import Mathlib.Algebra.BigOperators.Fin
import Mathlib.Algebra.BigOperators.Ring.Finset

open scoped BigOperators

namespace Cert.Spec

variable {M : Type*} [AddCommMonoid M]

/-- The sum of the terms at positions 0 … k. -/
def psum (T : Fin 8 → M) (k : ℕ) : M := ∑ j : Fin 8, if j.val ≤ k then T j else 0

theorem psum_zero (T : Fin 8 → M) : psum T 0 = T 0 := by
  unfold psum
  rw [Finset.sum_eq_single (0 : Fin 8)]
  · simp
  · intro j _ hj
    have : ¬ j.val ≤ 0 := by
      intro h; apply hj; apply Fin.ext; simpa using h
    rw [if_neg this]
  · intro h; exact absurd (Finset.mem_univ _) h

theorem psum_succ (T : Fin 8 → M) (k : ℕ) (hk : k + 1 < 8) : psum T (k + 1) = psum T k + T ⟨k + 1, hk⟩ := by
  unfold psum
  have h : ∀ j : Fin 8, (if j.val ≤ k + 1 then T j else 0) = (if j.val ≤ k then T j else 0) + (if j = ⟨k + 1, hk⟩ then T j else 0) := by
    intro j
    by_cases h1 : j.val ≤ k
    · have h2 : j ≠ ⟨k + 1, hk⟩ := by
        intro e; rw [e] at h1; exact absurd h1 (Nat.not_succ_le_self k)
      rw [if_pos h1, if_pos (Nat.le_succ_of_le h1), if_neg h2, add_zero]
    · by_cases h2 : j = ⟨k + 1, hk⟩
      · subst h2
        rw [if_neg h1, if_pos (le_refl _), if_pos rfl, zero_add]
      · have h3 : ¬ j.val ≤ k + 1 := by
          intro h; apply h2; apply Fin.ext; show j.val = k + 1; omega
        rw [if_neg h1, if_neg h3, if_neg h2, add_zero]
  rw [Finset.sum_congr rfl (fun j _ => h j), Finset.sum_add_distrib, Finset.sum_ite_eq' Finset.univ (⟨k + 1, hk⟩ : Fin 8) T, if_pos (Finset.mem_univ _)]

theorem psum_seven (T : Fin 8 → M) : psum T 7 = ∑ j : Fin 8, T j := by
  unfold psum
  exact Finset.sum_congr rfl (fun j _ => if_pos (by have := j.isLt; omega))

end Cert.Spec
-- ==== Proof.KIAccum.lean ====
/-
  The accumulation at the exact reals' extension: after the last column tile of row-tile i the accumulator holds the
  sum over the eight column tiles of the tile's squared gaps, so the result array's row 8 i holds that sum.
-/
import proofs.«162464_j90563680404074_2_alg».proof.Proof.KIOut
import proofs.«162464_j90563680404074_2_alg».proof.Proof.PayValue
import proofs.«162464_j90563680404074_2_alg».proof.Proof.PrefixSum

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window BodyObligation cellOf)

variable (m : (ℓ : Loc nD τ sig) → Buf (Elt Ideal) ℓ)

/-- The normalised rows and the targets, as the region finds them. -/
abbrev aOf (c : Dev nD) : Cert.Spec.SA.Idx → EReal := V m c main_v19
abbrev sOf (c : Dev nD) : Cert.Spec.SS.Idx → EReal := V m c main_arg3

/-- One point adds its tile's squared gaps to the accumulator, entry by entry. -/
theorem step_apply (c : Dev nD) (t : Fin cfg0.N) (acc : Vec Ideal S8x128 .f32) (y : S8x128.Idx) :
    step m c t acc y = acc y + Cert.Spec.tile (aOf m c) (sOf m c) (ti t) (tj t) :=
  Cert.PayValue.pay2_tile (aOf m c) (sOf m c) (ti t) (tj t) _ _ _ acc (blk1_apply m c t) (blk0_apply m c t) (blk2_apply m c t) y

/-- After position n the accumulator holds, at every entry, the tiles of its row of tiles up to its column tile. -/
theorem fold_apply (c : Dev nD) : ∀ (n : ℕ) (hn : n < cfg0.N) (y : S8x128.Idx),
    fold m c n hn y = Cert.Spec.psum (fun j => Cert.Spec.tile (aOf m c) (sOf m c) (ti ⟨n, hn⟩) j) (n % 8)
  | 0, hn, y => by
    unfold fold
    rw [step_apply, Cert.PayValue.pay1_apply, zero_add]
    exact (Cert.Spec.psum_zero _).symm
  | n + 1, hn, y => by
    unfold fold
    by_cases h0 : (n + 1) % 8 = 0
    · rw [if_pos h0, step_apply, Cert.PayValue.pay1_apply, zero_add, h0, Cert.Spec.psum_zero]
      exact congrArg _ (Fin.ext h0)
    · rw [if_neg h0, step_apply, fold_apply c n (Nat.lt_of_succ_lt hn) y]
      have e2 : (n + 1) % 8 = n % 8 + 1 := by omega
      have hk : n % 8 + 1 < 8 := by omega
      have ei : ti ⟨n, Nat.lt_of_succ_lt hn⟩ = ti ⟨n + 1, hn⟩ := Fin.ext (by show n / 8 = (n + 1) / 8; omega)
      rw [e2, Cert.Spec.psum_succ _ _ hk, ei]
      exact congrArg _ (congrArg _ (Fin.ext e2))

/-- Row 8 i of the result array, lane 0: the sum of row-tile i's eight tiles. -/
theorem out_tiles (c : Dev nD) (i : Fin 8) :
    @Eq EReal ((dats m 0 c).arrAt 3 cfg0.N (ix2 (⟨8 * i.val, by omega⟩ : Fin 64) (⟨0, by omega⟩ : Fin 128)))
      (∑ j : Fin 8, Cert.Spec.tile (aOf m c) (sOf m c) i j) := by
  rw [out_apply, fold_apply]
  have e7 : (8 * i.val + 7) % 8 = 7 := by omega
  rw [e7, Cert.Spec.psum_seven]
  exact Finset.sum_congr rfl (fun j _ => congrArg (fun i' => Cert.Spec.tile (aOf m c) (sOf m c) i' j) (Fin.ext (by show (8 * i.val + 7) / 8 = i.val; omega)))

end Cert.KernelIdeal.Hand

end
-- ==== Proof.KIValue.lean ====
/-
  The idealized kernel's result: the triplet term plus the mean of the squared gaps, the same extended real the
  reference computes. The region and the host operations after it compute the sum of the squared gaps tile by tile,
  which is the sum over all pairs of rows.
-/
import proofs.«162464_j90563680404074_2_alg».proof.Proof.KIHostEq
import proofs.«162464_j90563680404074_2_alg».proof.Proof.KIAccum

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)

/-- Summing, from zero, the entries (8 i, 0) of an array whose entry (8 i, 0) is the sum of row-tile i's eight tiles
    gives the sum of the squared gaps over every pair of rows. -/
theorem tailLoss_total (a : Cert.Spec.SA.Idx → EReal) (s : Cert.Spec.SS.Idx → EReal) (O : FVec Ideal S64x128 .f32)
    (hO : ∀ i : Fin 8, O (ix2 (⟨8 * i.val, by omega⟩ : Fin 64) (⟨0, by omega⟩ : Fin 128)) = ∑ j : Fin 8, Cert.Spec.tile a s i j) (i : S_.Idx) :
    tailLoss O i = (0 : EReal) + Cert.Spec.total a s := by
  rw [tailLoss_apply, Cert.Spec.total_eq_tiles]
  congr 1
  exact Finset.sum_congr rfl (fun b _ => hO b)

variable (m : (ℓ : Loc nD τ sig) → Buf (Elt Ideal) ℓ) (ρ : Dev nD → PrngReg)

/-- The result array after the region, as a matrix of 64 rows of 128 lanes. -/
def outArr (c : Dev nD) : FVec Ideal S64x128 .f32 := (dats m 0 c).arrAt 3 cfg0.N

set_option maxHeartbeats 2000000 in
theorem outArr_tiles (c : Dev nD) (i : Fin 8) :
    outArr m c (ix2 (⟨8 * i.val, by omega⟩ : Fin 64) (⟨0, by omega⟩ : Fin 128)) = ∑ j : Fin 8, Cert.Spec.tile (aOf m c) (sOf m c) i j :=
  out_tiles m c i

/-- The normalised rows the region finds are the reference's. -/
theorem aOf_eq (c : Dev nD) : aOf m c = Cert.RefValue.refAhat (m ((c : Thread nD τ).loc main_arg0)) :=
  (V_v19 m c).trans ((congrArg (fun Y => truncf (F := Ideal) .bf16 Y bitsLt_bf16_f32) (kerAhat_eq _)).trans (narrow_id _))

/-- The targets the region finds are the argument's. -/
theorem sOf_eq (c : Dev nD) : sOf m c = m ((c : Thread nD τ).loc main_arg3) := V_arg3 m c

/-- The sum the host operations after the region form is the sum of the squared gaps over every pair of rows. -/
theorem tail_total (c : Dev nD) (i : S_.Idx) :
    tailLoss (outArr m c) i
      = (0 : EReal) + Cert.Spec.total (Cert.RefValue.refAhat (m ((c : Thread nD τ).loc main_arg0))) (m ((c : Thread nD τ).loc main_arg3)) :=
  (tailLoss_total (aOf m c) (sOf m c) (outArr m c) (outArr_tiles m c) i).trans
    (congrArg (fun z : EReal => (0 : EReal) + z) (congrArg₂ Cert.Spec.total (aOf_eq m c) (sOf_eq m c)))

/-- The triplet term the region finds is the reference's, at the one scalar index. -/
theorem t13_eq (c : Dev nD) : (V m c main_v13 : FVec Ideal S_ .f32) ix0
    = Cert.RefValue.refTriplet (m ((c : Thread nD τ).loc main_arg0)) (m ((c : Thread nD τ).loc main_arg1)) (m ((c : Thread nD τ).loc main_arg2)) ix0 :=
  (congrFun (V_v13 m c) ix0).trans (congrFun (kerTriplet_eq _ _ _) ix0)

set_option maxHeartbeats 2000000 in
/-- THE VALUE: the result buffer holds the triplet term plus the mean of the squared gaps. -/
theorem result_eq (c : Dev nD) :
    AT m c main_v27 = (fun _ => Cert.RefValue.refTriplet (m ((c : Thread nD τ).loc main_arg0)) (m ((c : Thread nD τ).loc main_arg1)) (m ((c : Thread nD τ).loc main_arg2)) ix0
      + Ideal.ofBits .f32 0x3F800000#32 * Ideal.div ((0 : EReal) + Cert.Spec.total (Cert.RefValue.refAhat (m ((c : Thread nD τ).loc main_arg0))) (m ((c : Thread nD τ).loc main_arg3))) (Ideal.ofBits .f32 0x4C800000#32)) := by
  refine (show AT m c main_v27 = tailOf (F := Ideal) (V m c main_v13) (outArr m c) from AT_v27 m c).trans ?_
  funext i
  obtain rfl := eq_ix0 i
  refine (tailOf_apply (V m c main_v13) (outArr m c) ix0).trans ?_
  rw [tail_total m c ix0, t13_eq m c]
/-- THE RUN with its result named: every weakly fair execution of the idealized kernel's @main terminates, nothing
    faulting, with the result at the value above and the four argument arrays as launched. -/
theorem value_run : θ_run defs (onTc (τ := τ) (main (F := Ideal))) ⟨m, fun _ => 0, ρ⟩ (fun r => ∀ c : Dev nD,
      r.2.mem ((c.tc : Thread nD τ).loc main_v27) = (fun _ => Cert.RefValue.refTriplet (m ((c : Thread nD τ).loc main_arg0)) (m ((c : Thread nD τ).loc main_arg1)) (m ((c : Thread nD τ).loc main_arg2)) ix0
          + Ideal.ofBits .f32 0x3F800000#32 * Ideal.div ((0 : EReal) + Cert.Spec.total (Cert.RefValue.refAhat (m ((c : Thread nD τ).loc main_arg0))) (m ((c : Thread nD τ).loc main_arg3))) (Ideal.ofBits .f32 0x4C800000#32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v27 (mem_rest main_v27 (by decide) (by decide))).trans (result_eq m c),
     ((h c).2 main_arg0 (mem_rest main_arg0 (by decide) (by decide))).trans (AT_arg0 m c),
     ((h c).2 main_arg1 (mem_rest main_arg1 (by decide) (by decide))).trans (AT_arg1 m c),
     ((h c).2 main_arg2 (mem_rest main_arg2 (by decide) (by decide))).trans (AT_arg2 m c),
     (((h c).1 2).trans (exit2 m c)).trans (V_arg3 m c)⟩) (run_main m ρ)

end Cert.KernelIdeal.Hand

end
-- ==== Proof.lean ====
/-
  The certificate's five claims, assembled.

  Both programs compute, from an anchor, a positive and a negative array of 8192 rows of 256 entries and a square
  matrix of targets, the mean over the rows of relu(‖a − p + ε‖ − ‖a − n + ε‖ + margin) plus the mean over all pairs
  of rows of (⟨â_R, â_C⟩ − s(R, C))², where â is the anchor with each row divided by max(‖row‖, ε'). The first
  term and â are computed by the same host operations in both. The second term the reference takes as one matrix
  product, a difference, a square and a sum over both axes; the kernel walks an 8 × 8 grid of 1024 × 1024 tiles,
  sums each tile's squared gaps, accumulates the eight tiles of a row of tiles in a scratch block, writes the total
  out once per row of tiles, and the host adds the eight totals. Over the extended reals a sum may be regrouped
  freely (addition is commutative and associative there, with no appeal to finiteness), and a change of float format
  is the identity, so the two results are the same extended real.

  Frames: each kernel program runs to the end, faults nowhere and leaves its four argument arrays as launched
  (the region only reads them, and no host operation writes them); the reference's frame is its run with the result
  dropped. The idealization rewrote nothing, so its preservation claim is trivial.
-/
import proofs.«162464_j90563680404074_2_alg».proof.Defs
import proofs.«162464_j90563680404074_2_alg».proof.Proof.Gen.Kernel
import proofs.«162464_j90563680404074_2_alg».proof.Proof.Gen.KernelIdeal
import proofs.«162464_j90563680404074_2_alg».proof.Proof.Gen.ReferenceIdeal
import proofs.«162464_j90563680404074_2_alg».proof.Proof.Gen.Pre_finite_inputs
import proofs.«162464_j90563680404074_2_alg».proof.Proof.KTail
import proofs.«162464_j90563680404074_2_alg».proof.Proof.KIValue
import proofs.«162464_j90563680404074_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Hand.frame m ρ

theorem frame_kernelIdeal : Cert.frame_KernelIdeal := fun m ρ _ => Cert.KernelIdeal.Hand.frame m ρ

theorem frame_referenceIdeal : Cert.frame_ReferenceIdeal := fun m ρ _ =>
  (θ_run Cert.ReferenceIdeal.defs _ _).mono (fun _ h c => (h c).2) (Cert.RefValue.ref_run m ρ)

/-- From memories agreeing on the arguments both idealized programs end at one value: the triplet term plus the mean
    of the squared gaps, the kernel's by its tiles, the reference's by the whole sum. -/
theorem algebraic : Cert.algebraic_KernelIdeal_ReferenceIdeal := by
  intro m ρ m' ρ' _ hagree
  refine ⟨_, Cert.KernelIdeal.Hand.value_run m ρ, ?_⟩
  refine (θ_run Cert.ReferenceIdeal.defs _ _).mono (fun _ h c => ⟨(h c).1.trans ?_, (h c).2⟩) (Cert.RefValue.ref_run m' ρ')
  rw [(hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
